-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S_ : Shape := ⟨0, ![]⟩
abbrev S3072x1024 : Shape := ⟨2, ![3072, 1024]⟩
abbrev S1024x3072 : Shape := ⟨2, ![1024, 3072]⟩
abbrev S4096x3072 : Shape := ⟨2, ![4096, 3072]⟩
abbrev S512x1024 : Shape := ⟨2, ![512, 1024]⟩
abbrev S512x3072 : Shape := ⟨2, ![512, 3072]⟩
abbrev S1024x1 : Shape := ⟨2, ![1024, 1]⟩
abbrev S1024 : Shape := ⟨1, ![1024]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S4096x3072, .bf16⟩
  | .hbm, ⟨11, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1, .f32⟩
  | .local _ .vmem, ⟨14, _⟩ => ⟨S1024x1, .f32⟩
  | .local _ .vmem, ⟨15, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S1024x1024 : S_.BroadcastsInDim S1024x1024 (![] : Fin 0 → Fin S1024x1024.rank)
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  dot_S512x1024_S1024x3072_S512x3072_1_0_0_1_n_n_wf : DotDims.WF S512x1024 S1024x3072 S512x3072 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S4096x3072.size a
  hwx0_2 : ∀ i : grid0.Coords, EltTy.bits .bf16 = 32 ∨ (Rect.block (s := S4096x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x3072.size a
  hwx1_0 : ∀ i : grid1.Coords, EltTy.bits .bf16 = 32 ∨ (Rect.block (s := S4096x3072) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x3072.size a
  hwx1_1 : ∀ i : grid1.Coords, EltTy.bits .bf16 = 32 ∨ (Rect.block (s := S4096x3072) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x3072.size a
  hwx1_2 : ∀ i : grid1.Coords, EltTy.bits .bf16 = 32 ∨ (Rect.block (s := S4096x3072) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S_ : Shape := ⟨0, ![]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1024x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x4096, .f32⟩
  | .hbm, ⟨31, _⟩ => ⟨S4096x4096, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.FrameKernelRegion0.lean ====
import proofs.«164149_j72249939853362_2_alg».proof.Proof.Gen.Kernel.Launch
import proofs.«164149_j72249939853362_2_alg».proof.Proof.Gen.Kernel.Skeleton
import proofs.«164149_j72249939853362_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection kernel (the first pallas_call): its body on one row block

The first kernel multiplies a block of 512 rows of the input (rounded to bf16) by the whole
1024 x 3072 weight matrix and stores the 512 x 3072 product (rounded to bf16) into the output's
staging buffer. Everything here is stated at a PARAMETER `V`: the contents of the core's buffers
when the region is entered. At a grid point `t` the first input window holds rows
`512 t … 512 t + 511` of the input array, the second holds the whole weight matrix (fetched once,
at the first point, and left in place), and the body leaves in the output window's buffer the one
store's payload computed from those two blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input window's buffer holds its row block at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input window's buffer holds the whole weight matrix at every point: fetched at the first point,
    and where it is not fetched its block index has not moved, so the block left in place is still the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-! ## What the body leaves in the output window's buffer -/

/-- The output window's buffer after the body, from the two input blocks: the one whole-buffer store of the
    product of the row block by the weight matrix. -/
def out0_2 (x0 : Vec F S512x1024 .f32) (x1 : Vec F S1024x3072 .bf16) : Vec F S512x3072 .bf16 :=
  View.canon [⟨r0_2, k0_pay1 (View.ld x0 r0_0) (View.ld x1 r0_1)⟩]

/-- The one store covers the buffer. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

/-! ## The body's triple -/

set_option maxHeartbeats 1000000 in
/-- The body on whole staging memrefs, the inputs' at read contents `x0`, `x1` and the output's at anything, runs
    to the continuation holding the inputs' as they were and the output's at `out0_2 x0 x1`: the body loads the
    two inputs, loads the output buffer (the value is not used), and stores the product over the whole of it. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at
    point `t` each input's buffer at its block and the output's at `out0_2` of the two input blocks; the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.FrameKernelRegion1Runs.lean ====
import proofs.«164149_j72249939853362_2_alg».proof.Proof.Gen.Kernel.Launch
import proofs.«164149_j72249939853362_2_alg».proof.Proof.Gen.Kernel.Skeleton
import proofs.«164149_j72249939853362_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what its three cases share

The second region runs on a 4 × 4 grid: the outer coordinate picks a block of 1024 query rows, the inner one a block of
1024 keys. At the first inner step the three scratch buffers (running maximum, running sum, running accumulator) are
reset; at every step they absorb one key block; at the last inner step the quotient accumulator / sum is stored. -/

/-- The reset is taken exactly when the inner coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The quotient is stored exactly when the inner coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three scratch operands: running maximum, running sum (one column each), running accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The scoped buffers of the first region, which the second never touches: each whole at some contents. -/
abbrev otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's invariant before its first point: those buffers, the three scratch operands at some contents, and
    the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.FrameKernelRegion1RunA.lean ====
import proofs.«164149_j72249939853362_2_alg».proof.Proof.FrameKernelRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- FIRST INNER STEP. The scratch buffers are found at anything, reset, and absorb the key block; the output buffer is
    not touched. The pieces the three scratch buffers end with are the witness the run finds. -/
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 x2 : Vec F S1024x1024 .bf16) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.FrameKernelRegion1RunB.lean ====
import proofs.«164149_j72249939853362_2_alg».proof.Proof.FrameKernelRegion1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- MIDDLE INNER STEPS. The scratch buffers are found at what the step before left (`xs0 xs1 xs2`) and absorb the key
    block; the output buffer is not touched. -/
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 x2 : Vec F S1024x1024 .bf16) (xs0 xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.FrameKernelRegion1RunC.lean ====
import proofs.«164149_j72249939853362_2_alg».proof.Proof.FrameKernelRegion1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- LAST INNER STEP. The scratch buffers are found at what the step before left, absorb the key block, and the output
    buffer, found at anything, is stored whole with accumulator / sum. -/
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 x2 : Vec F S1024x1024 .bf16) (xs0 xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.FrameKernelRegion1.lean ====
import proofs.«164149_j72249939853362_2_alg».proof.Proof.FrameKernelRegion1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what its buffers hold point by point, and the body obligation -/

section
-- the core's buffer contents when the region is entered
variable (V : (c : Dev nD) → (b : Ref sig .tc) → Buf (Elt F) ((c : Thread nD τ).loc b))

/-- Window `w`'s block at point `t`, read off its array as the region finds it. Windows 0, 1, 2 are the query, key
    and value column blocks of one array; window 3 is the output. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-- What the step leaves in the output buffer, read back through one staging view (nothing is stored: a placeholder no one consults). -/
def out1_A_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) : Vec F S1024x1024 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

theorem scover1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y
/-- What the step leaves in scratch 0: its pieces read back. -/
def sout1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

theorem scover1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x1.size (by sl_kernel_rfl) y
/-- What the step leaves in scratch 1: its pieces read back. -/
def sout1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

theorem scover1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) (y : S1024x1024.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S1024x1024.size (by sl_kernel_rfl) y
/-- What the step leaves in scratch 2: its pieces read back. -/
def sout1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) : Vec F S1024x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What the step leaves in the output buffer, read back through one staging view (nothing is stored: a placeholder no one consults). -/
def out1_B_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) : Vec F S1024x1024 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

theorem scover1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y
/-- What the step leaves in scratch 0: its pieces read back. -/
def sout1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

theorem scover1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1.size (by sl_kernel_rfl) y
/-- What the step leaves in scratch 1: its pieces read back. -/
def sout1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

theorem scover1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S1024x1024.size (by sl_kernel_rfl) y
/-- What the step leaves in scratch 2: its pieces read back. -/
def sout1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) : Vec F S1024x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- The last step's one store tiles the output block. -/
theorem cover1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x1024.size (by sl_kernel_rfl) y

/-- What the step leaves in the output buffer, read back through one staging view. -/
def out1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) : Vec F S1024x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

theorem scover1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y
/-- What the step leaves in scratch 0: its pieces read back. -/
def sout1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

theorem scover1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y
/-- What the step leaves in scratch 1: its pieces read back. -/
def sout1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

theorem scover1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x1024.size (by sl_kernel_rfl) y
/-- What the step leaves in scratch 2: its pieces read back. -/
def sout1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) : Vec F S1024x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

section
variable (V : (c : Dev nD) → (b : Ref sig .tc) → Buf (Elt F) ((c : Thread nD τ).loc b))

/-- THE ACCUMULATION. After the body at position `n`: the output buffer and the three scratch buffers. A first inner
    step starts from the reset, every other one from what the position before left in the scratch buffers. -/
def outsAt1 (c : Dev nD) : (n : ℕ) → n < cfg1.N → Vec F S1024x1024 .f32 × Vec F S1024x1 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The first region's scoped buffers, the three scratch operands at some contents, the generator register: the
    invariant with every content forgotten. -/
abbrev PhiOpen (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r))

/-- The region invariant before position `n`: before the first point every scratch at anything; afterwards each
    scratch at what the position before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-- At any position the invariant gives the scratch operands at SOME contents. -/
theorem PhiS_open (c : Dev nD) (n : ℕ) (h : n ≤ cfg1.N) : PhiS V c n h ⊢ PhiOpen (F := F) c := by
  cases n with
  | zero => rw [PhiS_zero V c 0 h rfl, PhiA1_eq]
  | succ n =>
    rw [PhiS_succ]
    iintro ⟨⟨Ho1, Ho2, Ho3, Ho4, Ho5, HS0, HS1, HS2⟩, Hg⟩
    isplitr [Hg]
    · isplitl [Ho1]; · iexact Ho1
      isplitl [Ho2]; · iexact Ho2
      isplitl [Ho3]; · iexact Ho3
      isplitl [Ho4]; · iexact Ho4
      isplitl [Ho5]; · iexact Ho5
      isplitl [HS0]; · iexists _; iexact HS0
      isplitl [HS1]; · iexists _; iexact HS1
      iexists _; iexact HS2
    iexact Hg

/-! ## The proof data -/

/-- The proof data of the attention region on core `c`: the arrays as the region finds them; after the body each
    input's buffer at its block, the output's at the accumulation's first component; the invariant `PhiS`; nothing
    owed. The three input windows read ONE array, so each holds it at a part of the full share: the left half, and
    the two halves of the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the position's residue mod 4 says which case it is
    in; the invariant hands over the scratch operands (at anything for a first inner step, else at what the position
    before left) and takes them back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0 sout1_A_1 sout1_A_2; (try dsimp only)
    rw [PhiS_castSucc V c t]
    iintro ⟨HΦ, Ho, ⟨%d0, H0⟩, ⟨%d1, H1⟩, ⟨%d2, H2⟩, ⟨%d3, H3⟩⟩
    ihave HΦ' := (PhiS_open V c _ _) $$ HΦ
    icases HΦ' with ⟨⟨Ho1, Ho2, Ho3, Ho4, Ho5, HS0, HS1, HS2⟩, Hg⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [Ho1 Ho2 Ho3 Ho4 Ho5 HS0 HS1 HS2 Hg]
    · isplitr [Hg]
      · isplitl [Ho1]; · iexact Ho1
        isplitl [Ho2]; · iexact Ho2
        isplitl [Ho3]; · iexact Ho3
        isplitl [Ho4]; · iexact Ho4
        isplitl [Ho5]; · iexact Ho5
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      rw [PhiS_castSucc V c t, PhiS_pos V c _ _ hz]
      iintro ⟨⟨⟨Ho1, Ho2, Ho3, Ho4, Ho5, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Ho1 Ho2 Ho3 Ho4 Ho5 HS0 HS1 HS2 Hg]
      · isplitr [Hg]
        · isplitl [Ho1]; · iexact Ho1
          isplitl [Ho2]; · iexact Ho2
          isplitl [Ho3]; · iexact Ho3
          isplitl [Ho4]; · iexact Ho4
          isplitl [Ho5]; · iexact Ho5
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2

      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      rw [PhiS_castSucc V c t, PhiS_pos V c _ _ hz]
      iintro ⟨⟨⟨Ho1, Ho2, Ho3, Ho4, Ho5, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Ho1 Ho2 Ho3 Ho4 Ho5 HS0 HS1 HS2 Hg]
      · isplitr [Hg]
        · isplitl [Ho1]; · iexact Ho1
          isplitl [Ho2]; · iexact Ho2
          isplitl [Ho3]; · iexact Ho3
          isplitl [Ho4]; · iexact Ho4
          isplitl [Ho5]; · iexact Ho5
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2

      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_open V c _ _

end

end Cert.Kernel.Hand

end
-- ==== Proof.FrameKernelShares.lean ====
import proofs.«164149_j72249939853362_2_alg».proof.Proof.FrameKernelRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One array read through three windows: the shares at the region's entry and exit

The attention region's query, key and value windows are column blocks of ONE array. The core holds that array whole at
the full share before the region; through the region each input window holds it at a part of the share — the left half,
and the two halves of the right half — and at the exit the parts are joined again. The output array is a buffer of its
own, held at the full share throughout. -/

section
variable (V : (c : Dev nD) → (b : Ref sig .tc) → Buf (Elt F) ((c : Thread nD τ).loc b))

/-- ENTRY: the core's unscoped buffers are the region's arrays, each input window at its part of the share, and the
    unscoped rest. -/
theorem arrays_in1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  unfold Pipeline.arrBufs Dat.arrays
  rw [bigSep_W1, show Finset.image (Pipeline.arrRef (cfgs 1).spec) Finset.univ = insert main_v5 {main_v6} from by decide,
    bigSep_insert (by decide), bigSep_singleton,
    (arr_whole1 0).set_eq_univ, (arr_whole1 3).set_eq_univ]
  rw [show (dat1 V c).share 0 = fullShare.left from rfl, show (dat1 V c).share 1 = fullShare.right.left from rfl,
    show (dat1 V c).share 2 = fullShare.right.right from rfl, show (dat1 V c).share 3 = fullShare from rfl]
  beta_reduce
  refine sep_mono ?_ .rfl
  show iprop((((c : Thread nD τ).loc main_v5) ↦{fullShare} V c main_v5) ∗ (((c : Thread nD τ).loc main_v6) ↦{fullShare} V c main_v6)) ⊢ _
  iintro ⟨H5, H6⟩
  · ihave H := (pointsTo_share (PosShare.mem_left_op_right fullShare)).1 $$ H5
    icases H with ⟨Hl, Hr⟩
    ihave H' := (pointsTo_share (PosShare.mem_left_op_right fullShare.right)).1 $$ Hr
    icases H' with ⟨Hrl, Hrr⟩
    isplitl [Hl]; · iexact Hl
    isplitl [Hrl]; · iexact Hrl
    isplitl [Hrr]; · iexact Hrr
    iexact H6

/-- EXIT: the region's arrays at their final contents and the unscoped rest are the core's unscoped buffers at any
    valuation that has the output array at its final contents and agrees with the entry contents elsewhere. -/
theorem arrays_out1 (c : Dev nD) (V' : (b : Ref sig .tc) → Buf (Elt F) ((c : Thread nD τ).loc b))
    (h6 : V' main_v6 = (dat1 V c).arrAt 3 cfg1.N) (hrest : ∀ b, b ≠ main_v6 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 winFacts₀1.arr_unscoped c V']
  unfold Pipeline.arrBufs Dat.arrays
  rw [bigSep_W1, show Finset.image (Pipeline.arrRef (cfgs 1).spec) Finset.univ = insert main_v5 {main_v6} from by decide,
    bigSep_insert (by decide), bigSep_singleton,
    (arr_whole1 0).set_eq_univ, (arr_whole1 3).set_eq_univ]
  rw [show (dat1 V c).share 0 = fullShare.left from rfl, show (dat1 V c).share 1 = fullShare.right.left from rfl,
    show (dat1 V c).share 2 = fullShare.right.right from rfl, show (dat1 V c).share 3 = fullShare from rfl]
  beta_reduce
  rw [h6, hrest main_v5 (by decide)]
  have e0 : (dat1 V c).arrAt 0 cfg1.N = V c main_v5 := ((dat1 V c).arrAt_in 0 rfl _).trans (A_eq1 V c 0)
  have e1 : (dat1 V c).arrAt 1 cfg1.N = V c main_v5 := ((dat1 V c).arrAt_in 1 rfl _).trans (A_eq1 V c 1)
  have e2 : (dat1 V c).arrAt 2 cfg1.N = V c main_v5 := ((dat1 V c).arrAt_in 2 rfl _).trans (A_eq1 V c 2)
  rw [e0, e1, e2]
  have hr : (Pipeline.unscopedRest spec1 c (V c) : sProp 𝕄) = Pipeline.unscopedRest (cfgs 1).spec c V' := by
    unfold Pipeline.unscopedRest
    exact bigSep_congr fun b hb => by
      rw [hrest b (fun e => (Finset.mem_sdiff.mp hb).2 (Finset.mem_image.mpr ⟨3, Finset.mem_univ _, e ▸ rfl⟩))]
  rw [hr]
  refine sep_mono ?_ .rfl
  show _ ⊢ iprop((((c : Thread nD τ).loc main_v5) ↦{fullShare} V c main_v5) ∗ (((c : Thread nD τ).loc main_v6) ↦{fullShare} (dat1 V c).arrAt 3 cfg1.N))
  iintro ⟨Hl, Hrl, Hrr, H6⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  iexact H6

end

end Cert.Kernel.Hand

end
-- ==== Proof.FrameKernelRun.lean ====
import proofs.«164149_j72249939853362_2_alg».proof.Proof.FrameKernelRegion0
import proofs.«164149_j72249939853362_2_alg».proof.Proof.FrameKernelRegion1
import proofs.«164149_j72249939853362_2_alg».proof.Proof.FrameKernelShares
import proofs.«164149_j72249939853362_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the host stretch, the projection region, the attention region

The buffers' contents at each boundary are a fold from the launch memory: the host stretch's results, then the
projection's output array at what its write-backs leave, then the attention's output array likewise. -/

variable (m : (ℓ : Loc nD τ sig) → Buf (Elt F) ℓ) (ρ : Dev nD → PrngReg)

/-- The buffers when the projection region is entered, read at the core's references. -/
abbrev E1 : (c : Dev nD) → (b : Ref sig .tc) → Buf (Elt F) ((c : Thread nD τ).loc b) := fun c b => Gen.V1 m c b
/-- At the projection's exit: its arrays at what the pipeline leaves, every other buffer as entered. -/
def W2 (c : Dev nD) : Valuation τ sig (Elt F) :=
  Pipeline.withArrays spec0 c (Gen.V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the attention's exit: its output array at what the pipeline leaves, every other buffer as entered. -/
def W3 (c : Dev nD) : Valuation τ sig (Elt F) :=
  Function.update (W2 m c) (Proc.devRef .tc main_v6) ((dat1 (E2 m) c).arrAt 3 cfg1.N)
abbrev E3 : (c : Dev nD) → (b : Ref sig .tc) → Buf (Elt F) ((c : Thread nD τ).loc b) := fun c b => W3 m c b
theorem W3_v6 (c : Dev nD) : E3 m c main_v6 = (dat1 (E2 m) c).arrAt 3 cfg1.N := by
  show W3 m c (Proc.devRef .tc main_v6) = _
  unfold W3; exact Function.update_self ..
theorem W3_of_ne (c : Dev nD) (b : Ref sig .tc) (hb : b ≠ main_v6) : E3 m c b = E2 m c b := by
  show W3 m c (Proc.devRef .tc b) = W2 m c (Proc.devRef .tc b)
  unfold W3; exact Function.update_of_ne (StableHlo.devRef_ne_of_ne hb) ..

/-! ### The arguments end as launched -/

theorem W3_main_arg0 (c : Dev nD) : W3 m c (Proc.devRef .tc main_arg0) = m ((c : Thread nD τ).loc main_arg0) :=
  (W3_of_ne m c main_arg0 (by decide)).trans <| ((W2_arr m c 0).trans (((dat0 (E1 m) c).arrAt_in 0 rfl _).trans (A_eq0 (E1 m) c 0))).trans <| (Gen.V1_of m c main_arg0 (by decide)).trans rfl

theorem W3_main_arg1 (c : Dev nD) : W3 m c (Proc.devRef .tc main_arg1) = m ((c : Thread nD τ).loc main_arg1) :=
  (W3_of_ne m c main_arg1 (by decide)).trans <| (W2_of_ne m c main_arg1 (by decide)).trans <| (Gen.V1_of m c main_arg1 (by decide)).trans rfl

theorem W3_main_arg2 (c : Dev nD) : W3 m c (Proc.devRef .tc main_arg2) = m ((c : Thread nD τ).loc main_arg2) :=
  (W3_of_ne m c main_arg2 (by decide)).trans <| (W2_of_ne m c main_arg2 (by decide)).trans <| (Gen.V1_of m c main_arg2 (by decide)).trans rfl

theorem W3_main_arg3 (c : Dev nD) : W3 m c (Proc.devRef .tc main_arg3) = m ((c : Thread nD τ).loc main_arg3) :=
  (W3_of_ne m c main_arg3 (by decide)).trans <| (W2_of_ne m c main_arg3 (by decide)).trans <| (Gen.V1_of m c main_arg3 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region: entered from every unscoped buffer after the host stretch, left with its output array
    rewritten. Its three arrays are distinct buffers, split out of the unscoped buffers and put back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from the projection's exit contents, left with its output array rewritten. Its three
    input windows read one array, held by thirds of the full share through the region and joined again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄) ⊢ iprop((pdats m 1 c).arrays ((pdats m 1 c).arrAt · 0) ∗ Pipeline.unscopedRest spec1 c (E2 m c)) :=
      arrays_in1 (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    refine .trans ?_ (hin1 (E2 m) c)
    unfold Pipeline.ΦA
    iintro ⟨Hp, -, Hr⟩
    isplitl [Hr]; · iexact Hr
    iexact Hp
  hout c := by
    rw [Pipeline.ownSems0_none, show (pdats m 1 c).Φ (Fin.last _) = (dat1 (E2 m) c).Φ (Fin.last cfg1.N) from rfl]
    refine (hout1 (E2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E2 m c)) ⊢ (unscopedBufs c (E3 m c) : sProp 𝕄) :=
      arrays_out1 (E2 m) c (E3 m c) (W3_v6 m c) (fun b hb => W3_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, the attention's output array ends at what its pipeline leaves, and the four arguments end as launched. -/
theorem run_named : θ_run defs (onTc (τ := τ) (main (F := F))) ⟨m, fun _ => 0, ρ⟩ (fun r => ∀ c : Dev nD,
      r.2.mem ((c.tc : Thread nD τ).loc main_v6) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v6 (by decide))).trans (W3_v6 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

/-- THE FRAME: the run with the output array's contents dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_named m ρ)

end Cert.Kernel.Hand

end
-- ==== Proof.FrameKernelIdealRegion0.lean ====
import proofs.«164149_j72249939853362_2_alg».proof.Proof.Gen.KernelIdeal.Launch
import proofs.«164149_j72249939853362_2_alg».proof.Proof.Gen.KernelIdeal.Skeleton
import proofs.«164149_j72249939853362_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection kernel (the first pallas_call): its body on one row block

The first kernel multiplies a block of 512 rows of the input (rounded to bf16) by the whole
1024 x 3072 weight matrix and stores the 512 x 3072 product (rounded to bf16) into the output's
staging buffer. Everything here is stated at a PARAMETER `V`: the contents of the core's buffers
when the region is entered. At a grid point `t` the first input window holds rows
`512 t … 512 t + 511` of the input array, the second holds the whole weight matrix (fetched once,
at the first point, and left in place), and the body leaves in the output window's buffer the one
store's payload computed from those two blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input window's buffer holds its row block at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input window's buffer holds the whole weight matrix at every point: fetched at the first point,
    and where it is not fetched its block index has not moved, so the block left in place is still the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-! ## What the body leaves in the output window's buffer -/

/-- The output window's buffer after the body, from the two input blocks: the one whole-buffer store of the
    product of the row block by the weight matrix. -/
def out0_2 (x0 : Vec F S512x1024 .f32) (x1 : Vec F S1024x3072 .bf16) : Vec F S512x3072 .bf16 :=
  View.canon [⟨r0_2, k0_pay1 (View.ld x0 r0_0) (View.ld x1 r0_1)⟩]

/-- The one store covers the buffer. -/
theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

/-! ## The body's triple -/

set_option maxHeartbeats 1000000 in
/-- The body on whole staging memrefs, the inputs' at read contents `x0`, `x1` and the output's at anything, runs
    to the continuation holding the inputs' as they were and the output's at `out0_2 x0 x1`: the body loads the
    two inputs, loads the output buffer (the value is not used), and stores the product over the whole of it. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at
    point `t` each input's buffer at its block and the output's at `out0_2` of the two input blocks; the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.FrameKernelIdealRegion1Runs.lean ====
import proofs.«164149_j72249939853362_2_alg».proof.Proof.Gen.KernelIdeal.Launch
import proofs.«164149_j72249939853362_2_alg».proof.Proof.Gen.KernelIdeal.Skeleton
import proofs.«164149_j72249939853362_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what its three cases share

The second region runs on a 4 × 4 grid: the outer coordinate picks a block of 1024 query rows, the inner one a block of
1024 keys. At the first inner step the three scratch buffers (running maximum, running sum, running accumulator) are
reset; at every step they absorb one key block; at the last inner step the quotient accumulator / sum is stored. -/

/-- The reset is taken exactly when the inner coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The quotient is stored exactly when the inner coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-- One staging buffer of the output window, through which its contents are stated. -/
abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three scratch operands: running maximum, running sum (one column each), running accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The scoped buffers of the first region, which the second never touches: each whole at some contents. -/
abbrev otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's invariant before its first point: those buffers, the three scratch operands at some contents, and
    the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.FrameKernelIdealRegion1RunA.lean ====
import proofs.«164149_j72249939853362_2_alg».proof.Proof.FrameKernelIdealRegion1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- FIRST INNER STEP. The scratch buffers are found at anything, reset, and absorb the key block; the output buffer is
    not touched. The pieces the three scratch buffers end with are the witness the run finds. -/
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 x1 x2 : Vec F S1024x1024 .bf16) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.FrameKernelIdealRegion1RunB.lean ====
import proofs.«164149_j72249939853362_2_alg».proof.Proof.FrameKernelIdealRegion1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- MIDDLE INNER STEPS. The scratch buffers are found at what the step before left (`xs0 xs1 xs2`) and absorb the key
    block; the output buffer is not touched. -/
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 x1 x2 : Vec F S1024x1024 .bf16) (xs0 xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.FrameKernelIdealRegion1RunC.lean ====
import proofs.«164149_j72249939853362_2_alg».proof.Proof.FrameKernelIdealRegion1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- LAST INNER STEP. The scratch buffers are found at what the step before left, absorb the key block, and the output
    buffer, found at anything, is stored whole with accumulator / sum. -/
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 x1 x2 : Vec F S1024x1024 .bf16) (xs0 xs1 : Vec F S1024x1 .f32) (xs2 : Vec F S1024x1024 .f32) :
    Σ' (L3 : List (View.Piece (Elt F) S1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.FrameKernelIdealRegion1.lean ====
import proofs.«164149_j72249939853362_2_alg».proof.Proof.FrameKernelIdealRegion1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The attention region: what its buffers hold point by point, and the body obligation -/

section
-- the core's buffer contents when the region is entered
variable (V : (c : Dev nD) → (b : Ref sig .tc) → Buf (Elt F) ((c : Thread nD τ).loc b))

/-- Window `w`'s block at point `t`, read off its array as the region finds it. Windows 0, 1, 2 are the query, key
    and value column blocks of one array; window 3 is the output. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-- What the step leaves in the output buffer, read back through one staging view (nothing is stored: a placeholder no one consults). -/
def out1_A_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) : Vec F S1024x1024 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

theorem scover1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S1024x1.size (by sl_kernel_rfl) y
/-- What the step leaves in scratch 0: its pieces read back. -/
def sout1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) : Vec F S1024x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

theorem scover1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) (y : S1024x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S1024x1.size (by sl_kernel_rfl) y
/-- What the step leaves in scratch 1: its pieces read back. -/
def sout1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) : Vec F S1024x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

theorem scover1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) (y : S1024x1024.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S1024x1024.size (by sl_kernel_rfl) y
/-- What the step leaves in scratch 2: its pieces read back. -/
def sout1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) : Vec F S1024x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- What the step leaves in the output buffer, read back through one staging view (nothing is stored: a placeholder no one consults). -/
def out1_B_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) : Vec F S1024x1024 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

theorem scover1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S1024x1.size (by sl_kernel_rfl) y
/-- What the step leaves in scratch 0: its pieces read back. -/
def sout1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

theorem scover1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) (y : S1024x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S1024x1.size (by sl_kernel_rfl) y
/-- What the step leaves in scratch 1: its pieces read back. -/
def sout1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

theorem scover1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) (y : S1024x1024.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S1024x1024.size (by sl_kernel_rfl) y
/-- What the step leaves in scratch 2: its pieces read back. -/
def sout1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) : Vec F S1024x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- The last step's one store tiles the output block. -/
theorem cover1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S1024x1024.size (by sl_kernel_rfl) y

/-- What the step leaves in the output buffer, read back through one staging view. -/
def out1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) : Vec F S1024x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

theorem scover1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S1024x1.size (by sl_kernel_rfl) y
/-- What the step leaves in scratch 0: its pieces read back. -/
def sout1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

theorem scover1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) (y : S1024x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S1024x1.size (by sl_kernel_rfl) y
/-- What the step leaves in scratch 1: its pieces read back. -/
def sout1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

theorem scover1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) (y : S1024x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S1024x1024.size (by sl_kernel_rfl) y
/-- What the step leaves in scratch 2: its pieces read back. -/
def sout1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) : Vec F S1024x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

section
variable (V : (c : Dev nD) → (b : Ref sig .tc) → Buf (Elt F) ((c : Thread nD τ).loc b))

/-- THE ACCUMULATION. After the body at position `n`: the output buffer and the three scratch buffers. A first inner
    step starts from the reset, every other one from what the position before left in the scratch buffers. -/
def outsAt1 (c : Dev nD) : (n : ℕ) → n < cfg1.N → Vec F S1024x1024 .f32 × Vec F S1024x1 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The first region's scoped buffers, the three scratch operands at some contents, the generator register: the
    invariant with every content forgotten. -/
abbrev PhiOpen (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r))

/-- The region invariant before position `n`: before the first point every scratch at anything; afterwards each
    scratch at what the position before left in it. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-- At any position the invariant gives the scratch operands at SOME contents. -/
theorem PhiS_open (c : Dev nD) (n : ℕ) (h : n ≤ cfg1.N) : PhiS V c n h ⊢ PhiOpen (F := F) c := by
  cases n with
  | zero => rw [PhiS_zero V c 0 h rfl, PhiA1_eq]
  | succ n =>
    rw [PhiS_succ]
    iintro ⟨⟨Ho1, Ho2, Ho3, Ho4, Ho5, HS0, HS1, HS2⟩, Hg⟩
    isplitr [Hg]
    · isplitl [Ho1]; · iexact Ho1
      isplitl [Ho2]; · iexact Ho2
      isplitl [Ho3]; · iexact Ho3
      isplitl [Ho4]; · iexact Ho4
      isplitl [Ho5]; · iexact Ho5
      isplitl [HS0]; · iexists _; iexact HS0
      isplitl [HS1]; · iexists _; iexact HS1
      iexists _; iexact HS2
    iexact Hg

/-! ## The proof data -/

/-- The proof data of the attention region on core `c`: the arrays as the region finds them; after the body each
    input's buffer at its block, the output's at the accumulation's first component; the invariant `PhiS`; nothing
    owed. The three input windows read ONE array, so each holds it at a part of the full share: the left half, and
    the two halves of the right half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the position's residue mod 4 says which case it is
    in; the invariant hands over the scratch operands (at anything for a first inner step, else at what the position
    before left) and takes them back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0 sout1_A_1 sout1_A_2; (try dsimp only)
    rw [PhiS_castSucc V c t]
    iintro ⟨HΦ, Ho, ⟨%d0, H0⟩, ⟨%d1, H1⟩, ⟨%d2, H2⟩, ⟨%d3, H3⟩⟩
    ihave HΦ' := (PhiS_open V c _ _) $$ HΦ
    icases HΦ' with ⟨⟨Ho1, Ho2, Ho3, Ho4, Ho5, HS0, HS1, HS2⟩, Hg⟩
    iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [Ho1 Ho2 Ho3 Ho4 Ho5 HS0 HS1 HS2 Hg]
    · isplitr [Hg]
      · isplitl [Ho1]; · iexact Ho1
        isplitl [Ho2]; · iexact Ho2
        isplitl [Ho3]; · iexact Ho3
        isplitl [Ho4]; · iexact Ho4
        isplitl [Ho5]; · iexact Ho5
        isplitl [HS0]
        · unfold owns; iexists _; isplitr
          swap; · iexact HS0
          ipureintro; exact View.read_writes_of_cover _ _ _ _ _ (scover1_A_0 c _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      rw [PhiS_castSucc V c t, PhiS_pos V c _ _ hz]
      iintro ⟨⟨⟨Ho1, Ho2, Ho3, Ho4, Ho5, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Ho1 Ho2 Ho3 Ho4 Ho5 HS0 HS1 HS2 Hg]
      · isplitr [Hg]
        · isplitl [Ho1]; · iexact Ho1
          isplitl [Ho2]; · iexact Ho2
          isplitl [Ho3]; · iexact Ho3
          isplitl [Ho4]; · iexact Ho4
          isplitl [Ho5]; · iexact Ho5
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2

      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      rw [PhiS_castSucc V c t, PhiS_pos V c _ _ hz]
      iintro ⟨⟨⟨Ho1, Ho2, Ho3, Ho4, Ho5, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Ho1 Ho2 Ho3 Ho4 Ho5 HS0 HS1 HS2 Hg]
      · isplitr [Hg]
        · isplitl [Ho1]; · iexact Ho1
          isplitl [Ho2]; · iexact Ho2
          isplitl [Ho3]; · iexact Ho3
          isplitl [Ho4]; · iexact Ho4
          isplitl [Ho5]; · iexact Ho5
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2

      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the scratch contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl, PhiA1_eq]
  exact PhiS_open V c _ _

end

end Cert.KernelIdeal.Hand

end
-- ==== Proof.FrameKernelIdealShares.lean ====
import proofs.«164149_j72249939853362_2_alg».proof.Proof.FrameKernelIdealRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One array read through three windows: the shares at the region's entry and exit

The attention region's query, key and value windows are column blocks of ONE array. The core holds that array whole at
the full share before the region; through the region each input window holds it at a part of the share — the left half,
and the two halves of the right half — and at the exit the parts are joined again. The output array is a buffer of its
own, held at the full share throughout. -/

section
variable (V : (c : Dev nD) → (b : Ref sig .tc) → Buf (Elt F) ((c : Thread nD τ).loc b))

/-- ENTRY: the core's unscoped buffers are the region's arrays, each input window at its part of the share, and the
    unscoped rest. -/
theorem arrays_in1 (c : Dev nD) :
    (unscopedBufs c (V c) : sProp 𝕄) ⊢ iprop((dat1 V c).arrays ((dat1 V c).arrAt · 0) ∗ Pipeline.unscopedRest spec1 c (V c)) := by
  rw [Pipeline.unscopedBufs_split₀ cfgs 1 winFacts₀1.arr_unscoped c (V c)]
  unfold Pipeline.arrBufs Dat.arrays
  rw [bigSep_W1, show Finset.image (Pipeline.arrRef (cfgs 1).spec) Finset.univ = insert main_v5 {main_v6} from by decide,
    bigSep_insert (by decide), bigSep_singleton,
    (arr_whole1 0).set_eq_univ, (arr_whole1 3).set_eq_univ]
  rw [show (dat1 V c).share 0 = fullShare.left from rfl, show (dat1 V c).share 1 = fullShare.right.left from rfl,
    show (dat1 V c).share 2 = fullShare.right.right from rfl, show (dat1 V c).share 3 = fullShare from rfl]
  beta_reduce
  refine sep_mono ?_ .rfl
  show iprop((((c : Thread nD τ).loc main_v5) ↦{fullShare} V c main_v5) ∗ (((c : Thread nD τ).loc main_v6) ↦{fullShare} V c main_v6)) ⊢ _
  iintro ⟨H5, H6⟩
  · ihave H := (pointsTo_share (PosShare.mem_left_op_right fullShare)).1 $$ H5
    icases H with ⟨Hl, Hr⟩
    ihave H' := (pointsTo_share (PosShare.mem_left_op_right fullShare.right)).1 $$ Hr
    icases H' with ⟨Hrl, Hrr⟩
    isplitl [Hl]; · iexact Hl
    isplitl [Hrl]; · iexact Hrl
    isplitl [Hrr]; · iexact Hrr
    iexact H6

/-- EXIT: the region's arrays at their final contents and the unscoped rest are the core's unscoped buffers at any
    valuation that has the output array at its final contents and agrees with the entry contents elsewhere. -/
theorem arrays_out1 (c : Dev nD) (V' : (b : Ref sig .tc) → Buf (Elt F) ((c : Thread nD τ).loc b))
    (h6 : V' main_v6 = (dat1 V c).arrAt 3 cfg1.N) (hrest : ∀ b, b ≠ main_v6 → V' b = V c b) :
    iprop((dat1 V c).arrays ((dat1 V c).arrAt · cfg1.N) ∗ Pipeline.unscopedRest spec1 c (V c)) ⊢ (unscopedBufs c V' : sProp 𝕄) := by
  rw [Pipeline.unscopedBufs_split₀ cfgs 1 winFacts₀1.arr_unscoped c V']
  unfold Pipeline.arrBufs Dat.arrays
  rw [bigSep_W1, show Finset.image (Pipeline.arrRef (cfgs 1).spec) Finset.univ = insert main_v5 {main_v6} from by decide,
    bigSep_insert (by decide), bigSep_singleton,
    (arr_whole1 0).set_eq_univ, (arr_whole1 3).set_eq_univ]
  rw [show (dat1 V c).share 0 = fullShare.left from rfl, show (dat1 V c).share 1 = fullShare.right.left from rfl,
    show (dat1 V c).share 2 = fullShare.right.right from rfl, show (dat1 V c).share 3 = fullShare from rfl]
  beta_reduce
  rw [h6, hrest main_v5 (by decide)]
  have e0 : (dat1 V c).arrAt 0 cfg1.N = V c main_v5 := ((dat1 V c).arrAt_in 0 rfl _).trans (A_eq1 V c 0)
  have e1 : (dat1 V c).arrAt 1 cfg1.N = V c main_v5 := ((dat1 V c).arrAt_in 1 rfl _).trans (A_eq1 V c 1)
  have e2 : (dat1 V c).arrAt 2 cfg1.N = V c main_v5 := ((dat1 V c).arrAt_in 2 rfl _).trans (A_eq1 V c 2)
  rw [e0, e1, e2]
  have hr : (Pipeline.unscopedRest spec1 c (V c) : sProp 𝕄) = Pipeline.unscopedRest (cfgs 1).spec c V' := by
    unfold Pipeline.unscopedRest
    exact bigSep_congr fun b hb => by
      rw [hrest b (fun e => (Finset.mem_sdiff.mp hb).2 (Finset.mem_image.mpr ⟨3, Finset.mem_univ _, e ▸ rfl⟩))]
  rw [hr]
  refine sep_mono ?_ .rfl
  show _ ⊢ iprop((((c : Thread nD τ).loc main_v5) ↦{fullShare} V c main_v5) ∗ (((c : Thread nD τ).loc main_v6) ↦{fullShare} (dat1 V c).arrAt 3 cfg1.N))
  iintro ⟨Hl, Hrl, Hrr, H6⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  iexact H6

end

end Cert.KernelIdeal.Hand

end
-- ==== Proof.FrameKernelIdealRun.lean ====
import proofs.«164149_j72249939853362_2_alg».proof.Proof.FrameKernelIdealRegion0
import proofs.«164149_j72249939853362_2_alg».proof.Proof.FrameKernelIdealRegion1
import proofs.«164149_j72249939853362_2_alg».proof.Proof.FrameKernelIdealShares
import proofs.«164149_j72249939853362_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the host stretch, the projection region, the attention region

The buffers' contents at each boundary are a fold from the launch memory: the host stretch's results, then the
projection's output array at what its write-backs leave, then the attention's output array likewise. -/

variable (m : (ℓ : Loc nD τ sig) → Buf (Elt F) ℓ) (ρ : Dev nD → PrngReg)

/-- The buffers when the projection region is entered, read at the core's references. -/
abbrev E1 : (c : Dev nD) → (b : Ref sig .tc) → Buf (Elt F) ((c : Thread nD τ).loc b) := fun c b => Gen.V1 m c b
/-- At the projection's exit: its arrays at what the pipeline leaves, every other buffer as entered. -/
def W2 (c : Dev nD) : Valuation τ sig (Elt F) :=
  Pipeline.withArrays spec0 c (Gen.V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the attention's exit: its output array at what the pipeline leaves, every other buffer as entered. -/
def W3 (c : Dev nD) : Valuation τ sig (Elt F) :=
  Function.update (W2 m c) (Proc.devRef .tc main_v6) ((dat1 (E2 m) c).arrAt 3 cfg1.N)
abbrev E3 : (c : Dev nD) → (b : Ref sig .tc) → Buf (Elt F) ((c : Thread nD τ).loc b) := fun c b => W3 m c b
theorem W3_v6 (c : Dev nD) : E3 m c main_v6 = (dat1 (E2 m) c).arrAt 3 cfg1.N := by
  show W3 m c (Proc.devRef .tc main_v6) = _
  unfold W3; exact Function.update_self ..
theorem W3_of_ne (c : Dev nD) (b : Ref sig .tc) (hb : b ≠ main_v6) : E3 m c b = E2 m c b := by
  show W3 m c (Proc.devRef .tc b) = W2 m c (Proc.devRef .tc b)
  unfold W3; exact Function.update_of_ne (StableHlo.devRef_ne_of_ne hb) ..

/-! ### The arguments end as launched -/

theorem W3_main_arg0 (c : Dev nD) : W3 m c (Proc.devRef .tc main_arg0) = m ((c : Thread nD τ).loc main_arg0) :=
  (W3_of_ne m c main_arg0 (by decide)).trans <| ((W2_arr m c 0).trans (((dat0 (E1 m) c).arrAt_in 0 rfl _).trans (A_eq0 (E1 m) c 0))).trans <| (Gen.V1_of m c main_arg0 (by decide)).trans rfl

theorem W3_main_arg1 (c : Dev nD) : W3 m c (Proc.devRef .tc main_arg1) = m ((c : Thread nD τ).loc main_arg1) :=
  (W3_of_ne m c main_arg1 (by decide)).trans <| (W2_of_ne m c main_arg1 (by decide)).trans <| (Gen.V1_of m c main_arg1 (by decide)).trans rfl

theorem W3_main_arg2 (c : Dev nD) : W3 m c (Proc.devRef .tc main_arg2) = m ((c : Thread nD τ).loc main_arg2) :=
  (W3_of_ne m c main_arg2 (by decide)).trans <| (W2_of_ne m c main_arg2 (by decide)).trans <| (Gen.V1_of m c main_arg2 (by decide)).trans rfl

theorem W3_main_arg3 (c : Dev nD) : W3 m c (Proc.devRef .tc main_arg3) = m ((c : Thread nD τ).loc main_arg3) :=
  (W3_of_ne m c main_arg3 (by decide)).trans <| (W2_of_ne m c main_arg3 (by decide)).trans <| (Gen.V1_of m c main_arg3 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region: entered from every unscoped buffer after the host stretch, left with its output array
    rewritten. Its three arrays are distinct buffers, split out of the unscoped buffers and put back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from the projection's exit contents, left with its output array rewritten. Its three
    input windows read one array, held by thirds of the full share through the region and joined again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄) ⊢ iprop((pdats m 1 c).arrays ((pdats m 1 c).arrAt · 0) ∗ Pipeline.unscopedRest spec1 c (E2 m c)) :=
      arrays_in1 (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E2 m) c).Φ 0 from rfl]
    refine .trans ?_ (hin1 (E2 m) c)
    unfold Pipeline.ΦA
    iintro ⟨Hp, -, Hr⟩
    isplitl [Hr]; · iexact Hr
    iexact Hp
  hout c := by
    rw [Pipeline.ownSems0_none, show (pdats m 1 c).Φ (Fin.last _) = (dat1 (E2 m) c).Φ (Fin.last cfg1.N) from rfl]
    refine (hout1 (E2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E2 m c)) ⊢ (unscopedBufs c (E3 m c) : sProp 𝕄) :=
      arrays_out1 (E2 m) c (E3 m c) (W3_v6 m c) (fun b hb => W3_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub Gen.hostOps0_fresh (Gen.V0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, the attention's output array ends at what its pipeline leaves, and the four arguments end as launched. -/
theorem run_named : θ_run defs (onTc (τ := τ) (main (F := F))) ⟨m, fun _ => 0, ρ⟩ (fun r => ∀ c : Dev nD,
      r.2.mem ((c.tc : Thread nD τ).loc main_v6) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v6 (by decide))).trans (W3_v6 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c)⟩)

/-- THE FRAME: the run with the output array's contents dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_named m ρ)

end Cert.KernelIdeal.Hand

end
-- ==== Proof.RefRead.lean ====
/-
  The reference's run read one operation at a time: the generated stages and their read-at-an-index lemmas are
  imported here, and the hand lemmas about the reference's value build on them.
-/
import proofs.«164149_j72249939853362_2_alg».proof.Proof.Gen.ReferenceIdeal.Run
import proofs.«164149_j72249939853362_2_alg».proof.Proof.Gen.ReferenceIdeal.Read
-- ==== Proof.IdealRegion0Value.lean ====
import proofs.«164149_j72249939853362_2_alg».proof.Proof.FrameKernelIdealRegion0
import proofs.«164149_j72249939853362_2_alg».proof.Proof.Gen.KernelIdeal.Regions
import Idealize.ShloMosaic.PureOps.Ideal.Laws
import Idealize.ShloMosaic.Lib.ValueIdx
import Idealize.ShloMosaic.Lib.Pipeline.Value

/-!
# The first kernel's output array, and the weight array it reads, at the extended reals

The first kernel writes, block of 512 rows by block of 512 rows, the product of the input array by the weight
array: on the extended reals the roundings to bf16 are the identity and a product accumulated into the zero splat is
the sum over the contracted axis, so the store's payload at `(r, s)` is `∑ k, x (r, k) * w (k, s)`; the row blocks of
the eight grid points tile the output array (row `r` lies in the block of point `r / 512`), so the array after the
region is that product index by index (`arr5_eq`). The weight array itself is written by the host operations before
the region: the three weight matrices stacked along the rows — the first scaled by a constant —, transposed and
rounded; at `(k, j)` it is row `j` of the stack read at column `k` (`v4_eq`).
-/

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo

namespace R0

/-! ## The product at an index -/

/-- Rows of `a` times columns of `w`: entry `(r, s)` is the sum over `k` of `a (r, k) * w (k, s)`. -/
def rowsByCols (a : S4096x1024.Idx → EReal) (w : S1024x3072.Idx → EReal) : S4096x3072.Idx → EReal :=
  fun i => ∑ k : Fin 1024, a (ix2 (⟨(i 0).val, idx2_lt0 i⟩ : Fin 4096) k) * w (ix2 k (⟨(i 1).val, idx2_lt1 i⟩ : Fin 3072))

/-- The operands' indices at result index `j` and contraction index `q`: the left operand's row is the result's row,
    the right operand's column the result's column, and the contracted axes follow the contraction coordinate. -/
theorem lhs_0 (j : S512x3072.Idx) (q : dot_S512x1024_S1024x3072_S512x3072_1_0_0_1_n_n.contr.Idx) :
    (dot_S512x1024_S1024x3072_S512x3072_1_0_0_1_n_n.lhsIdx j q 0).val = (j 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_1 (j : S512x3072.Idx) (q : dot_S512x1024_S1024x3072_S512x3072_1_0_0_1_n_n.contr.Idx) :
    (dot_S512x1024_S1024x3072_S512x3072_1_0_0_1_n_n.lhsIdx j q 1).val = (q ⟨0, by decide⟩).val :=
  dot_S512x1024_S1024x3072_S512x3072_1_0_0_1_n_n.lhsIdx_val_of_single rfl j q
theorem rhs_0 (j : S512x3072.Idx) (q : dot_S512x1024_S1024x3072_S512x3072_1_0_0_1_n_n.contr.Idx) :
    (dot_S512x1024_S1024x3072_S512x3072_1_0_0_1_n_n.rhsIdx j q 0).val = (q ⟨0, by decide⟩).val :=
  dot_S512x1024_S1024x3072_S512x3072_1_0_0_1_n_n.rhsIdx_val_of_single rfl j q
theorem rhs_1 (j : S512x3072.Idx) (q : dot_S512x1024_S1024x3072_S512x3072_1_0_0_1_n_n.contr.Idx) :
    (dot_S512x1024_S1024x3072_S512x3072_1_0_0_1_n_n.rhsIdx j q 1).val = (j 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The store's payload at an index: on the extended reals the two roundings are the identity, the cast of the
    weight block to its own shape is the identity, and the product accumulated into the zero splat is the sum over
    the contracted axis. -/
theorem pay_apply (x0 : Vec Ideal S512x1024 .f32) (x1 : Vec Ideal S1024x3072 .bf16) (j : S512x3072.Idx) :
    (k0_pay1 (F := Ideal) x0 x1 : S512x3072.Idx → EReal) j
      = ∑ k : Fin 1024, (x0 : S512x1024.Idx → EReal) (ix2 (⟨(j 0).val, idx2_lt0 j⟩ : Fin 512) k)
          * (x1 : S1024x3072.Idx → EReal) (ix2 k (⟨(j 1).val, idx2_lt1 j⟩ : Fin 3072)) := by
  unfold k0_pay1
  show matmul (F := Ideal) (φ₁ := .bf16) (φ₂ := .bf16) dot_S512x1024_S1024x3072_S512x3072_1_0_0_1_n_n none (x0 : FVec Ideal S512x1024 .bf16) (shapeCast S1024x3072 (x1 : FVec Ideal S1024x3072 .bf16) shapeCasts_S1024x3072_S1024x3072) (constant (F := Ideal) S512x3072 .f32 0x00000000#32) j = _
  rw [shapeCast_self]
  refine (Ideal.matmul_constant_zero_apply (φ₁ := .bf16) (φ₂ := .bf16) dot_S512x1024_S1024x3072_S512x3072_1_0_0_1_n_n none x0 x1 j).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx j ((contrEquiv1 dot_S512x1024_S1024x3072_S512x3072_1_0_0_1_n_n 1024 rfl rfl).symm k) = ix2 (⟨(j 0).val, idx2_lt0 j⟩ : Fin 512) k := funext fun a => Fin.ext (by
    match a with
    | ⟨0, _⟩ => exact lhs_0 _ _
    | ⟨1, _⟩ => exact (lhs_1 _ _).trans hk)
  have er : dot_S512x1024_S1024x3072_S512x3072_1_0_0_1_n_n.rhsIdx j ((contrEquiv1 dot_S512x1024_S1024x3072_S512x3072_1_0_0_1_n_n 1024 rfl rfl).symm k) = ix2 k (⟨(j 1).val, idx2_lt1 j⟩ : Fin 3072) := funext fun a => Fin.ext (by
    match a with
    | ⟨0, _⟩ => exact (rhs_0 _ _).trans hk
    | ⟨1, _⟩ => exact rhs_1 _ _)
  rw [el, er]

/-- A block of rows of the product: if `x0` is rows `o … o + 511` of `a` and `x1` is `w`, then the payload at a block
    index is the product of `a` and `w` at the array index `o` rows further down. -/
theorem pay_rows (x0 : Vec Ideal S512x1024 .f32) (x1 : Vec Ideal S1024x3072 .bf16)
    (a : S4096x1024.Idx → EReal) (w : S1024x3072.Idx → EReal) (o : ℕ)
    (hx0 : ∀ (y : Fin 512) (k : Fin 1024) (h : o + y.val < 4096),
      (x0 : S512x1024.Idx → EReal) (ix2 y k) = a (ix2 (⟨o + y.val, h⟩ : Fin 4096) k))
    (hx1 : ∀ (k : Fin 1024) (s : Fin 3072), (x1 : S1024x3072.Idx → EReal) (ix2 k s) = w (ix2 k s))
    (j : S512x3072.Idx) (i : S4096x3072.Idx) (h0 : (i 0).val = o + (j 0).val) (h1 : (i 1).val = (j 1).val) :
    (k0_pay1 (F := Ideal) x0 x1 : S512x3072.Idx → EReal) j = rowsByCols a w i := by
  rw [pay_apply]; unfold rowsByCols
  refine Finset.sum_congr rfl fun k _ => ?_
  have hM : o + (j 0).val < 4096 := h0 ▸ idx2_lt0 i
  rw [hx0 ⟨(j 0).val, idx2_lt0 j⟩ k hM, hx1]
  have e0 : (⟨o + (j 0).val, hM⟩ : Fin 4096) = ⟨(i 0).val, idx2_lt0 i⟩ := Fin.ext h0.symm
  have e1 : (⟨(j 1).val, idx2_lt1 j⟩ : Fin 3072) = ⟨(i 1).val, idx2_lt1 i⟩ := Fin.ext h1.symm
  rw [e0, e1]

/-! ## From blocks to the array -/

theorem hz : (![0, 0] : Fin 2 → Nat) = fun _ => 0 := funext fun a => by fin_cases a <;> rfl

/-- The index maps over the grid: the input's row block moves with the output's, every other block index is zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every row block of the output is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

section
variable (V : (c : Dev nD) → (b : Ref sig .tc) → Buf (Elt Ideal) ((c : Thread nD τ).loc b))

/-- What point `t` writes back is block `t` of the product of the input array by the weight array. -/
theorem flushed_eq (c : Dev nD) (t : Fin cfg0.N) :
    (Hand.dat0 (F := Ideal) V c).flushed 2 t
      = ((cfg0.win 2).blk t).view.read (Elt Ideal) (rowsByCols (V c main_arg0) (V c main_v4)) := by
  show (cfg0.win 2).cut (grid0.coords t) ((Hand.dat0 (F := Ideal) V c).after 2 t) = _
  rw [Hand.after0_2]
  unfold Hand.out0_2
  rw [View.canon_unit_zero hz]
  simp only [View.ld_unit_zero (S := S512x1024) hz, View.ld_unit_zero (S := S1024x3072) hz]
  obtain ⟨e0, e1, e2, e3, e4, e5⟩ := idx_facts0 t
  funext j
  show (k0_pay1 (F := Ideal) (Hand.iblk0 V c 0 t) (Hand.iblk0 V c 1 t) : S512x3072.Idx → EReal) j
    = rowsByCols (V c main_arg0) (V c main_v4) (((cfg0.win 2).blk t).view.emb j)
  refine pay_rows _ _ _ _ (win0_2.index t (0 : Fin 2) * 512) ?_ ?_ j _ ?_ ?_
  · intro y k h
    show V c main_arg0 (((cfg0.win 0).blk t).view.emb (ix2 y k)) = V c main_arg0 (ix2 ⟨_, h⟩ k)
    refine congrArg (V c main_arg0) (funext fun a => Fin.ext ?_)
    match a with
    | ⟨0, _⟩ => show win0_0.index t (0 : Fin 2) * 512 + 1 * y.val = win0_2.index t (0 : Fin 2) * 512 + y.val; omega
    | ⟨1, _⟩ => show win0_0.index t (1 : Fin 2) * 1024 + 1 * k.val = k.val; omega
  · intro k s
    show V c main_v4 (((cfg0.win 1).blk t).view.emb (ix2 k s)) = V c main_v4 (ix2 k s)
    refine congrArg (V c main_v4) (funext fun a => Fin.ext ?_)
    match a with
    | ⟨0, _⟩ => show win0_1.index t (0 : Fin 2) * 1024 + 1 * k.val = k.val; omega
    | ⟨1, _⟩ => show win0_1.index t (1 : Fin 2) * 3072 + 1 * s.val = s.val; omega
  · show win0_2.index t (0 : Fin 2) * 512 + 1 * (j 0).val = win0_2.index t (0 : Fin 2) * 512 + (j 0).val; omega
  · show win0_2.index t (1 : Fin 2) * 3072 + 1 * (j 1).val = (j 1).val; omega

/-- An index of the output array is in point `t`'s block iff each coordinate is in the block's range on its axis. -/
theorem mem_blk (t : Fin cfg0.N) (i : S4096x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v5).slice (win0_2.rect t)).set ↔ _
  rw [View.set_slice_whole, Rect.mem_set_unit]
  exact Iff.rfl

/-- Row `r` of the output lies in the block of the point whose block index is `r / 512`. -/
theorem cover (i : S4096x3072.Idx) : ∃ t : Fin cfg0.N, (cfg0.win 2).flush t = true ∧ i ∈ ((cfg0.win 2).blk t).view.set := by
  have hi0 : (i 0).val < 4096 := idx2_lt0 i
  have hi1 : (i 1).val < 3072 := idx2_lt1 i
  obtain ⟨t, ht⟩ := idx_onto0 ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- The output array after the region: the product of the input array by the weight array. -/
theorem arr5 (c : Dev nD) :
    (Hand.dat0 (F := Ideal) V c).arrAt 2 cfg0.N = rowsByCols (V c main_arg0) (V c main_v4) :=
  (Hand.dat0 (F := Ideal) V c).arrAt_eq_of_cover 2 (rowsByCols (V c main_arg0) (V c main_v4)) (fun t _ => flushed_eq V c t) cover

end

/-! ## The weight array: what the host operations before the region leave -/

/-- The three pieces stacked along the rows: the first weight matrix scaled by the constant, the second, the third. -/
abbrev pieces (a1 a2 a3 : FVec Ideal S1024x1024 .f32) : List ((s : Shape) × (s.Idx → Ideal .f32)) :=
  [⟨S1024x1024, mulf a1 (broadcastInDim S1024x1024 ![] bcast_S_S1024x1024 (constant (F := Ideal) S_ .f32 0x3D000000#32))⟩,
   ⟨S1024x1024, a2⟩, ⟨S1024x1024, a3⟩]

/-- The host operations' term: the three weight matrices stacked along the rows (the first scaled by the constant),
    transposed, and rounded. -/
def weights (a1 a2 a3 : FVec Ideal S1024x1024 .f32) : FVec Ideal S1024x3072 .bf16 :=
  truncf .bf16 (transpose S1024x3072 [1, 0] (concatenate S3072x1024 0
      (pieces a1 a2 a3)
      concatenates_S1024x1024_S1024x1024_S1024x1024_S3072x1024_d0) transposes_S3072x1024_S1024x3072_1_0) bitsLt_bf16_f32

/-- Column `j` of the weight array is row `j` of the stacked matrices: of the first (scaled) for `j < 1024`, of the
    second for `1024 ≤ j < 2048`, of the third beyond. -/
theorem weights_apply (a1 a2 a3 : FVec Ideal S1024x1024 .f32) (k : Fin 1024) (j : Fin 3072) :
    (weights a1 a2 a3 : S1024x3072.Idx → EReal) (ix2 k j)
      = if h : j.val < 1024 then (a1 : S1024x1024.Idx → EReal) (ix2 (⟨j.val, h⟩ : Fin 1024) k) * Ideal.ofBits .f32 0x3D000000#32
        else if h2 : j.val < 2048 then (a2 : S1024x1024.Idx → EReal) (ix2 (⟨j.val - 1024, by omega⟩ : Fin 1024) k)
        else (a3 : S1024x1024.Idx → EReal) (ix2 (⟨j.val - 2048, by have := j.isLt; omega⟩ : Fin 1024) k) := by
  unfold weights
  rw [truncf_apply]
  rw [transpose_apply [1, 0] _ transposes_S3072x1024_S1024x3072_1_0 (ix2 k j) (ix2 j k : S3072x1024.Idx) (fun b => match b with
    | ⟨0, _⟩ => rfl
    | ⟨1, _⟩ => rfl)]
  by_cases h : j.val < 1024
  · rw [dif_pos h]
    rw [concatenate_apply_piece (0 : Fin S3072x1024.rank) (pieces a1 a2 a3) concatenates_S1024x1024_S1024x1024_S1024x1024_S3072x1024_d0 (ix2 j k : S3072x1024.Idx)
      0 (by show (0 : ℕ) < 3; omega) S1024x1024 _ rfl rfl 0 rfl (ix2 (⟨j.val, h⟩ : Fin 1024) k : S1024x1024.Idx)
      (fun b hb => match b, hb with
        | ⟨0, _⟩, hb => absurd rfl hb
        | ⟨1, _⟩, _ => rfl)
      (by show 0 + j.val = j.val; omega)]
    rfl
  · rw [dif_neg h]
    by_cases h2 : j.val < 2048
    · rw [dif_pos h2]
      exact concatenate_apply_piece (0 : Fin S3072x1024.rank) (pieces a1 a2 a3) concatenates_S1024x1024_S1024x1024_S1024x1024_S3072x1024_d0 (ix2 j k : S3072x1024.Idx)
        1 (by show (1 : ℕ) < 3; omega) S1024x1024 _ rfl rfl 1024 rfl (ix2 (⟨j.val - 1024, by omega⟩ : Fin 1024) k : S1024x1024.Idx)
        (fun b hb => match b, hb with
          | ⟨0, _⟩, hb => absurd rfl hb
          | ⟨1, _⟩, _ => rfl)
        (by show 1024 + (j.val - 1024) = j.val; omega)
    · rw [dif_neg h2]
      exact concatenate_apply_piece (0 : Fin S3072x1024.rank) (pieces a1 a2 a3) concatenates_S1024x1024_S1024x1024_S1024x1024_S3072x1024_d0 (ix2 j k : S3072x1024.Idx)
        2 (by show (2 : ℕ) < 3; omega) S1024x1024 _ rfl rfl 2048 rfl (ix2 (⟨j.val - 2048, by have := j.isLt; omega⟩ : Fin 1024) k : S1024x1024.Idx)
        (fun b hb => match b, hb with
          | ⟨0, _⟩, hb => absurd rfl hb
          | ⟨1, _⟩, _ => rfl)
        (by show 2048 + (j.val - 2048) = j.val; omega)

/-- The weight array the region finds is that term of the launch contents of the three weight arguments. -/
theorem v4_term (m : (ℓ : Loc nD τ sig) → Buf (Elt Ideal) ℓ) (c : Dev nD) :
    Gen.V1 m c main_v4 = weights (m ((c : Thread nD τ).loc main_arg1)) (m ((c : Thread nD τ).loc main_arg2)) (m ((c : Thread nD τ).loc main_arg3)) := by
  show StableHlo.after hostOps0 _ (Proc.devRef .tc main_v4) = _
  after_results; rfl

end R0

/-- The output array of the first kernel at an index: row `i` of the input array times column `j` of the weight array. -/
theorem arr5_eq (V : (c : Dev nD) → (b : Ref sig .tc) → Buf (Elt Ideal) ((c : Thread nD τ).loc b)) (c : Dev nD) (i : Fin 4096) (j : Fin 3072) :
    (show S4096x3072.Idx → EReal from (Hand.dat0 (F := Ideal) V c).arrAt 2 cfg0.N) (ValueIdx.ix2 i j)
      = ∑ k : Fin 1024, (show S4096x1024.Idx → EReal from V c main_arg0) (ValueIdx.ix2 i k) * (show S1024x3072.Idx → EReal from V c main_v4) (ValueIdx.ix2 k j) :=
  (congrFun (R0.arr5 V c) (ValueIdx.ix2 i j)).trans rfl

/-- The same with the three arrays named by typed variables: `o` the output array after the region, `a` the input
    array and `w` the weight array as the region finds them. -/
theorem arr5_eq' (V : (c : Dev nD) → (b : Ref sig .tc) → Buf (Elt Ideal) ((c : Thread nD τ).loc b)) (c : Dev nD)
    (o : S4096x3072.Idx → EReal) (a : S4096x1024.Idx → EReal) (w : S1024x3072.Idx → EReal)
    (ho : (Hand.dat0 (F := Ideal) V c).arrAt 2 cfg0.N = o) (ha : V c main_arg0 = a) (hw : V c main_v4 = w)
    (i : Fin 4096) (j : Fin 3072) :
    o (ValueIdx.ix2 i j) = ∑ k : Fin 1024, a (ValueIdx.ix2 i k) * w (ValueIdx.ix2 k j) := by
  subst ho ha hw
  exact arr5_eq V c i j

/-- The weight array at an index, from the launch contents of the three weight arguments. -/
theorem v4_eq (m : (ℓ : Loc nD τ sig) → Buf (Elt Ideal) ℓ) (c : Dev nD) (k : Fin 1024) (j : Fin 3072) :
    (show S1024x3072.Idx → EReal from Gen.V1 m c main_v4) (ValueIdx.ix2 k j)
      = if h : j.val < 1024 then (show S1024x1024.Idx → EReal from m ((c : Thread nD τ).loc main_arg1)) (ValueIdx.ix2 (⟨j.val, h⟩ : Fin 1024) k) * Ideal.ofBits .f32 0x3D000000#32
        else if h2 : j.val < 2048 then (show S1024x1024.Idx → EReal from m ((c : Thread nD τ).loc main_arg2)) (ValueIdx.ix2 (⟨j.val - 1024, by omega⟩ : Fin 1024) k)
        else (show S1024x1024.Idx → EReal from m ((c : Thread nD τ).loc main_arg3)) (ValueIdx.ix2 (⟨j.val - 2048, by have := j.isLt; omega⟩ : Fin 1024) k) :=
  (congrFun (R0.v4_term m c) (ValueIdx.ix2 k j)).trans (R0.weights_apply _ _ _ k j)

end Cert.KernelIdeal.HandValue

end
-- ==== Proof.AttnSpec.lean ====
/-
  Single-head attention over 4096 rows of width 1024, stated index by index on the extended reals.

  The inputs are a matrix `x` of 4096 rows and three square weight matrices. A projection is
  `proj x w i d = ∑ k, x i k * w d k` (the product with the transposed weight); queries, keys and values are the
  projections by the three weights. The score of row `i` against key `j` is the inner product of the two projected rows.

  Two arrangements of the same softmax-weighted average of the value rows are stated here.

  * `refOut`: the scores are scaled by `1 / sqrt 1024`, the row maximum is taken (from `-∞`, and once more against `-∞`),
    every score less that maximum is exponentiated, the exponentials are summed (from `0`), each is divided by the sum,
    and the quotients weigh the value rows.
  * `kernelOut`: the query weight is scaled by `1/32` beforehand, and the row is taken in four blocks of 1024 keys, in
    order, keeping a running maximum, a running sum of exponentials and a running weighted sum, each rescaled whenever the
    maximum grows (`stepE`); the result is the weighted sum divided by the sum of exponentials.
-/
import Idealize.ShloMosaic.PureOps.Ideal
import Mathlib

noncomputable section

open scoped BigOperators

namespace Cert.Attn

open Idealize.ShloMosaic

/-- A matrix of extended reals with `a` rows and `b` columns. -/
abbrev Mat (a b : ℕ) := Fin a → Fin b → EReal

/-- The scale folded into the query weight: the float word of `1/32`. -/
def sc : EReal := Ideal.ofBits .f32 0x3D000000#32

/-- Row `i` of `x` against row `d` of the weight `w`: the entry `(i, d)` of `x` times the transpose of `w`. -/
def proj (x : Mat 4096 1024) (w : Mat 1024 1024) : Mat 4096 1024 := fun i d => ∑ k : Fin 1024, x i k * w d k

/-- A weight with every entry multiplied by the scale `sc`. -/
def scaled (w : Mat 1024 1024) : Mat 1024 1024 := fun d k => w d k * sc

/-- The inner product of projected row `i` of `q` with projected row `j` of `kk`. -/
def score (q kk : Mat 4096 1024) (i j : Fin 4096) : EReal := ∑ d : Fin 1024, q i d * kk j d

/-- The `b`-th block of 1024 consecutive keys. -/
def keyBlock (b : Fin 4) : Finset (Fin 4096) := Finset.univ.filter fun j => j.val / 1024 = b.val

/-- One step of the streaming pass on (running maximum, running sum of exponentials, running weighted sum): take the
    block's maximum in, rescale both sums to the new maximum, add the block's own terms. -/
def stepE {ι : Type} (s v : ι → EReal) (st : EReal × EReal × EReal) (T : Finset ι) : EReal × EReal × EReal :=
  (max st.1 (T.sup s),
   Ideal.exp (st.1 - max st.1 (T.sup s)) * st.2.1 + ∑ k ∈ T, Ideal.exp (s k - max st.1 (T.sup s)),
   Ideal.exp (st.1 - max st.1 (T.sup s)) * st.2.2 + ∑ k ∈ T, Ideal.exp (s k - max st.1 (T.sup s)) * v k)

/-- The streaming arrangement: scores from the pre-scaled query weight, the four key blocks in order from the empty
    state `(-∞, 0, 0)`, and the final weighted sum over the final sum of exponentials. -/
def kernelOut (x : Mat 4096 1024) (wq wk wv : Mat 1024 1024) (i : Fin 4096) (c : Fin 1024) : EReal :=
  let st := ([0, 1, 2, 3] : List (Fin 4)).foldl
    (fun st b => stepE (score (proj x (scaled wq)) (proj x wk) i) (fun j => proj x wv j c) st (keyBlock b)) (⊥, 0, 0)
  Ideal.div st.2.2 st.2.1

/-- The reference's scale: the float word of `1` divided by the square root of the float word of `1024`. -/
def refScale : EReal := Ideal.div (Ideal.ofBits .f32 0x3F800000#32) (Ideal.sqrt (Ideal.ofBits .f32 0x44800000#32))

/-- The reference's score: the inner product of the projected rows, then the scale. -/
def refScore (x : Mat 4096 1024) (wq wk : Mat 1024 1024) (i j : Fin 4096) : EReal :=
  score (proj x wq) (proj x wk) i j * refScale

/-- The reference's row maximum: the fold of `max` over the row's scores from the float word of `-∞`, then once more
    `max` against that word. -/
def refMax (x : Mat 4096 1024) (wq wk : Mat 1024 1024) (i : Fin 4096) : EReal :=
  max (Ideal.ofBits .f32 0xFF800000#32)
    ((Finset.univ : Finset (Fin 4096)).fold max (Ideal.ofBits .f32 0xFF800000#32) (fun j => refScore x wq wk i j))

/-- The exponential of a score less its row's maximum. -/
def refExp (x : Mat 4096 1024) (wq wk : Mat 1024 1024) (i j : Fin 4096) : EReal :=
  Ideal.exp (refScore x wq wk i j - refMax x wq wk i)

/-- The row's normaliser: the float word of `0` plus the sum of the row's exponentials. -/
def refSum (x : Mat 4096 1024) (wq wk : Mat 1024 1024) (i : Fin 4096) : EReal :=
  Ideal.ofBits .f32 0x00000000#32 + ∑ j : Fin 4096, refExp x wq wk i j

/-- The reference arrangement: each exponential divided by its row's normaliser, weighing the value rows. -/
def refOut (x : Mat 4096 1024) (wq wk wv : Mat 1024 1024) (i : Fin 4096) (c : Fin 1024) : EReal :=
  ∑ j : Fin 4096, Ideal.div (refExp x wq wk i j) (refSum x wq wk i) * proj x wv j c

end Cert.Attn

end
-- ==== Proof.AttnCompose.lean ====
/-
  The streaming arrangement read off one product.

  The first kernel computes ONE product `y = x · W`, where the columns of `W` are the rows of the three weight
  matrices laid side by side: columns `0 … 1023` the rows of the query weight, each entry scaled by `sc`; columns
  `1024 … 2047` the rows of the key weight; columns `2048 … 3071` the rows of the value weight (`weights`). So the three
  column bands of `y` are the three projections of the specification: the scaled-query projection, the key projection
  and the value projection. The streaming pass over the key blocks, run on scores and values read off the bands of `y`,
  is therefore the specification's `kernelOut`.
-/
import proofs.«164149_j72249939853362_2_alg».proof.Proof.AttnSpec

noncomputable section

open scoped BigOperators

namespace Cert.Attn

open Idealize.ShloMosaic

/-- Column `b` of the stacked weight, at contracted index `k`: row `b` of the query weight (scaled) for `b < 1024`, row
    `b - 1024` of the key weight for `1024 ≤ b < 2048`, row `b - 2048` of the value weight beyond. -/
def weights (wq wk wv : Mat 1024 1024) (k : Fin 1024) (b : Fin 3072) : EReal :=
  if h : b.val < 1024 then wq ⟨b.val, h⟩ k * sc
  else if h2 : b.val < 2048 then wk ⟨b.val - 1024, by omega⟩ k
  else wv ⟨b.val - 2048, by have := b.isLt; omega⟩ k

/-- The first band of columns is the scaled query weight. -/
theorem weights_query (wq wk wv : Mat 1024 1024) (k d : Fin 1024) (h : d.val < 3072) :
    weights wq wk wv k ⟨d.val, h⟩ = scaled wq d k := by
  unfold weights scaled
  rw [dif_pos (show (⟨d.val, h⟩ : Fin 3072).val < 1024 from d.isLt)]

/-- The second band of columns is the key weight. -/
theorem weights_key (wq wk wv : Mat 1024 1024) (k d : Fin 1024) (h : 1024 + d.val < 3072) :
    weights wq wk wv k ⟨1024 + d.val, h⟩ = wk d k := by
  have hd := d.isLt
  unfold weights
  rw [dif_neg (show ¬ (⟨1024 + d.val, h⟩ : Fin 3072).val < 1024 by show ¬ (1024 + d.val < 1024); omega),
    dif_pos (show (⟨1024 + d.val, h⟩ : Fin 3072).val < 2048 by show 1024 + d.val < 2048; omega)]
  exact congrArg (fun t => wk t k) (Fin.ext (by show 1024 + d.val - 1024 = d.val; omega))

/-- The third band of columns is the value weight. -/
theorem weights_value (wq wk wv : Mat 1024 1024) (k d : Fin 1024) (h : 2048 + d.val < 3072) :
    weights wq wk wv k ⟨2048 + d.val, h⟩ = wv d k := by
  have hd := d.isLt
  unfold weights
  rw [dif_neg (show ¬ (⟨2048 + d.val, h⟩ : Fin 3072).val < 1024 by show ¬ (2048 + d.val < 1024); omega),
    dif_neg (show ¬ (⟨2048 + d.val, h⟩ : Fin 3072).val < 2048 by show ¬ (2048 + d.val < 2048); omega)]
  exact congrArg (fun t => wv t k) (Fin.ext (by show 2048 + d.val - 2048 = d.val; omega))

/-- The streaming pass on scores and values read off the three column bands of the product `y = x · W` is the
    specification's streaming arrangement. -/
theorem kernelOut_of_product (x : Mat 4096 1024) (wq wk wv : Mat 1024 1024) (y : Fin 4096 → Fin 3072 → EReal)
    (hy : ∀ a b, y a b = ∑ k : Fin 1024, x a k * weights wq wk wv k b) (i : Fin 4096) (e : Fin 1024) :
    (let st := ([0, 1, 2, 3] : List (Fin 4)).foldl
        (fun st b => stepE (fun j : Fin 4096 => ∑ d : Fin 1024, y i ⟨d.val, by omega⟩ * y j ⟨1024 + d.val, by omega⟩)
          (fun j : Fin 4096 => y j ⟨2048 + e.val, by omega⟩) st (keyBlock b)) (⊥, 0, 0)
     Ideal.div st.2.2 st.2.1) = kernelOut x wq wk wv i e := by
  have hq : ∀ (a : Fin 4096) (d : Fin 1024) (h : d.val < 3072), y a ⟨d.val, h⟩ = proj x (scaled wq) a d := fun a d h => by
    rw [hy]; unfold proj
    exact Finset.sum_congr rfl fun k _ => by rw [weights_query]
  have hk : ∀ (a : Fin 4096) (d : Fin 1024) (h : 1024 + d.val < 3072), y a ⟨1024 + d.val, h⟩ = proj x wk a d := fun a d h => by
    rw [hy]; unfold proj
    exact Finset.sum_congr rfl fun k _ => by rw [weights_key]
  have hv : ∀ (a : Fin 4096) (d : Fin 1024) (h : 2048 + d.val < 3072), y a ⟨2048 + d.val, h⟩ = proj x wv a d := fun a d h => by
    rw [hy]; unfold proj
    exact Finset.sum_congr rfl fun k _ => by rw [weights_value]
  unfold kernelOut score
  simp only [hq, hk, hv]

end Cert.Attn

end
-- ==== Proof.IdealRegion1ValuePieces.lean ====
/-
  What each case of the attention region's body leaves in its three scratch buffers and in the output buffer.

  Every store of the body covers its whole buffer, so what a buffer holds afterwards is the payload of its last store,
  with every load the payload depends on read as the whole buffer it loads. The running maximum ends at the new maximum
  of the old one and the key block's row maxima, the running sum and the accumulator at their rescaled old values plus
  the block's terms; a first inner step starts from the reset values instead of the old ones; the last inner step also
  stores the accumulator divided by the broadcast sum.
-/
import proofs.«164149_j72249939853362_2_alg».proof.Proof.FrameKernelIdealRegion1
import Idealize.ShloMosaic.Lib.Pipeline.Value
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl

/-- What case B leaves in scratch 0. -/
theorem sout_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) :
    sout1_B_0 c i arg2 harg2 arg3 harg3 arg4 harg4 arg5 harg5 arg6 harg6 arg7 harg7 arg8 harg8 hc0 hc1 x0 x1 x2 xs0 xs1 xs2 = k1_pay2 (k1_pay8 x0 x1 xs0) := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x1) hz2, View.ld_unit_zero (S := S1024x1024) hz2, View.readCov_unit_zero (S := S1024x1) _ hz2, View.readCov_unit_zero (S := S1024x1024) _ hz2]

/-- What case B leaves in scratch 1. -/
theorem sout_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) :
    sout1_B_1 c i arg2 harg2 arg3 harg3 arg4 harg4 arg5 harg5 arg6 harg6 arg7 harg7 arg8 harg8 hc0 hc1 x0 x1 x2 xs0 xs1 xs2 = k1_pay11 x0 x1 xs0 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x1) hz2, View.ld_unit_zero (S := S1024x1024) hz2, View.readCov_unit_zero (S := S1024x1) _ hz2, View.readCov_unit_zero (S := S1024x1024) _ hz2]

/-- What case B leaves in scratch 2. -/
theorem sout_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i) (x0 x1 x2 : Vec F S1024x1024 .bf16) (xs0 xs1 : Vec F S1024x1 .f32) (xs2 : Vec F S1024x1024 .f32) :
    sout1_B_2 c i arg2 harg2 arg3 harg3 arg4 harg4 arg5 harg5 arg6 harg6 arg7 harg7 arg8 harg8 hc0 hc1 x0 x1 x2 xs0 xs1 xs2 = k1_pay1 (k1_pay12 x0 x1 xs0 xs0 xs2 x2) := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x1) hz2, View.ld_unit_zero (S := S1024x1024) hz2, View.readCov_unit_zero (S := S1024x1) _ hz2, View.readCov_unit_zero (S := S1024x1024) _ hz2]

/-- What case C leaves in scratch 0. -/
theorem sout_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) :
    sout1_C_0 c i arg2 harg2 arg3 harg3 arg4 harg4 arg5 harg5 arg6 harg6 arg7 harg7 arg8 harg8 hc0 hc1 x0 x1 x2 xs0 xs1 xs2 = k1_pay2 (k1_pay8 x0 x1 xs0) := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x1) hz2, View.ld_unit_zero (S := S1024x1024) hz2, View.readCov_unit_zero (S := S1024x1) _ hz2, View.readCov_unit_zero (S := S1024x1024) _ hz2]

/-- What case C leaves in scratch 1. -/
theorem sout_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) :
    sout1_C_1 c i arg2 harg2 arg3 harg3 arg4 harg4 arg5 harg5 arg6 harg6 arg7 harg7 arg8 harg8 hc0 hc1 x0 x1 x2 xs0 xs1 xs2 = k1_pay11 x0 x1 xs0 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x1) hz2, View.ld_unit_zero (S := S1024x1024) hz2, View.readCov_unit_zero (S := S1024x1) _ hz2, View.readCov_unit_zero (S := S1024x1024) _ hz2]

/-- What case C leaves in scratch 2. -/
theorem sout_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) :
    sout1_C_2 c i arg2 harg2 arg3 harg3 arg4 harg4 arg5 harg5 arg6 harg6 arg7 harg7 arg8 harg8 hc0 hc1 x0 x1 x2 xs0 xs1 xs2 = k1_pay1 (k1_pay12 x0 x1 xs0 xs0 xs2 x2) := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x1) hz2, View.ld_unit_zero (S := S1024x1024) hz2, View.readCov_unit_zero (S := S1024x1) _ hz2, View.readCov_unit_zero (S := S1024x1024) _ hz2]

/-- What case A leaves in scratch 0. -/
theorem sout_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) :
    sout1_A_0 c i arg2 harg2 arg3 harg3 arg4 harg4 arg5 harg5 arg6 harg6 arg7 harg7 arg8 harg8 hc0 hc1 x0 x1 x2 = k1_pay2 (k1_pay8 x0 x1 (k1_pay4 (F := F))) := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S1024x1) hz2, View.ld_unit_zero (S := S1024x1024) hz2, View.readCov_unit_zero (S := S1024x1) _ hz2, View.readCov_unit_zero (S := S1024x1024) _ hz2]

/-- What case A leaves in scratch 1. -/
theorem sout_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) :
    sout1_A_1 c i arg2 harg2 arg3 harg3 arg4 harg4 arg5 harg5 arg6 harg6 arg7 harg7 arg8 harg8 hc0 hc1 x0 x1 x2 = k1_pay11 x0 x1 (k1_pay4 (F := F)) (k1_pay4 (F := F)) (k1_pay5 (F := F)) := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S1024x1) hz2, View.ld_unit_zero (S := S1024x1024) hz2, View.readCov_unit_zero (S := S1024x1) _ hz2, View.readCov_unit_zero (S := S1024x1024) _ hz2]

/-- What case A leaves in scratch 2. -/
theorem sout_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i) (x0 x1 x2 : Vec F S1024x1024 .bf16) :
    sout1_A_2 c i arg2 harg2 arg3 harg3 arg4 harg4 arg5 harg5 arg6 harg6 arg7 harg7 arg8 harg8 hc0 hc1 x0 x1 x2 = k1_pay1 (k1_pay12 x0 x1 (k1_pay4 (F := F)) (k1_pay4 (F := F)) (k1_pay6 (F := F)) x2) := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero hz2]
  simp only [View.readAt_eq_ld, harg2.read_unread, harg3.read_unread, harg4.read_unread, harg5.read_unread, harg6.read_unread, harg7.read_unread, harg8.read_unread, View.ld_unit_zero (S := S1024x1) hz2, View.ld_unit_zero (S := S1024x1024) hz2, View.readCov_unit_zero (S := S1024x1) _ hz2, View.readCov_unit_zero (S := S1024x1024) _ hz2]

/-- What the last step leaves in the output buffer. -/
theorem out_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i) (x0 x1 x2 : Vec F S1024x1024 .bf16) (xs0 xs1 : Vec F S1024x1 .f32) (xs2 : Vec F S1024x1024 .f32) :
    out1_C_3 c i arg2 harg2 arg3 harg3 arg4 harg4 arg5 harg5 arg6 harg6 arg7 harg7 arg8 harg8 hc0 hc1 x0 x1 x2 xs0 xs1 xs2 = k1_pay3 (k1_pay1 (k1_pay12 x0 x1 xs0 xs0 xs2 x2)) (k1_pay11 x0 x1 xs0 xs0 xs1) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1024x1) hz2, View.ld_unit_zero (S := S1024x1024) hz2, View.readCov_unit_zero (S := S1024x1) _ hz2, View.readCov_unit_zero (S := S1024x1024) _ hz2]

end Cert.KernelIdeal.HandValue

end
-- ==== Proof.IdealRegion1ValueCases.lean ====
/-
  What the three scratch buffers and the output buffer hold after the body at each grid position, by the position's
  case: a first inner step leaves one step from the reset values; every other step one step from what the position
  before left; the last inner step also leaves the accumulator divided by the sum in the output buffer.
-/
import proofs.«164149_j72249939853362_2_alg».proof.Proof.IdealRegion1ValuePieces

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem

variable {F : FTy → Type} [FloatOps F]
variable (V : (c : Dev nD) → (b : Ref sig .tc) → Buf (Elt F) ((c : Thread nD τ).loc b))

/-- A first inner step: one step from the reset values. -/
theorem outs_A (c : Dev nD) (t : Fin cfg1.N) (h0 : t.val % 4 = 0) (h1 : ¬t.val % 4 = 3) :
    (outsAt1 V c t.val t.isLt).2.1 = k1_pay2 (k1_pay8 (iblk1 V c 0 t) (iblk1 V c 1 t) (k1_pay4 (F := F)))
    ∧ (outsAt1 V c t.val t.isLt).2.2.1 = k1_pay11 (iblk1 V c 0 t) (iblk1 V c 1 t) (k1_pay4 (F := F)) (k1_pay4 (F := F)) (k1_pay5 (F := F))
    ∧ (outsAt1 V c t.val t.isLt).2.2.2
        = k1_pay1 (k1_pay12 (iblk1 V c 0 t) (iblk1 V c 1 t) (k1_pay4 (F := F)) (k1_pay4 (F := F)) (k1_pay6 (F := F)) (iblk1 V c 2 t)) := by
  rw [outsAt1_A V c t h0 h1]
  dsimp only
  exact ⟨(sout_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)),
    (sout_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)),
    (sout_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))⟩

/-- A middle inner step: one step from what the position before left. -/
theorem outs_B (c : Dev nD) (t : Fin cfg1.N) (h0 : ¬t.val % 4 = 0) (h1 : ¬t.val % 4 = 3) :
    (outsAt1 V c t.val t.isLt).2.1 = k1_pay2 (k1_pay8 (iblk1 V c 0 t) (iblk1 V c 1 t) (outsAt1 V c (t.val - 1) (Nat.lt_of_le_of_lt (Nat.sub_le _ _) t.isLt)).2.1)
    ∧ (outsAt1 V c t.val t.isLt).2.2.1 = k1_pay11 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1
    ∧ (outsAt1 V c t.val t.isLt).2.2.2
        = k1_pay1 (k1_pay12 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.2 (iblk1 V c 2 t)) := by
  rw [outsAt1_B V c t h0 h1]
  dsimp only
  exact ⟨(sout_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2),
    (sout_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2),
    (sout_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)⟩

/-- The last inner step: one step from what the position before left, and the quotient in the output buffer. -/
theorem outs_C (c : Dev nD) (t : Fin cfg1.N) (h0 : ¬t.val % 4 = 0) (h1 : t.val % 4 = 3) :
    (outsAt1 V c t.val t.isLt).2.1 = k1_pay2 (k1_pay8 (iblk1 V c 0 t) (iblk1 V c 1 t) (outsAt1 V c (t.val - 1) (Nat.lt_of_le_of_lt (Nat.sub_le _ _) t.isLt)).2.1)
    ∧ (outsAt1 V c t.val t.isLt).2.2.1 = k1_pay11 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1
    ∧ (outsAt1 V c t.val t.isLt).2.2.2
        = k1_pay1 (k1_pay12 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.2 (iblk1 V c 2 t))
    ∧ (outsAt1 V c t.val t.isLt).1
        = k1_pay3 (k1_pay1 (k1_pay12 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.2 (iblk1 V c 2 t)))
            (k1_pay11 (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.1 (outsAt1 V c (t.val - 1) (Nat.lt_of_le_of_lt (Nat.sub_le _ _) t.isLt)).2.2.1) := by
  rw [outsAt1_C V c t h0 h1]
  dsimp only
  exact ⟨(sout_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2),
    (sout_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2),
    (sout_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2),
    (out_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)⟩

end Cert.KernelIdeal.HandValue

end
-- ==== Proof.LibStreamSoftmax.lean ====
/-
  A streaming softmax-weighted sum: one row of scores taken in one block of columns at a time, on the extended reals.

  A row has a score `s k` for every column `k`, a real number or `⊥` (a masked column), and a real value `v k`.
  The quantities kept after the columns `S` have been seen are

    rmax s S   = sup_{k ∈ S} s k                               (`⊥` before any column, or while every column seen is masked)
    rsum s S   = ∑_{k ∈ S} exp (s k − rmax s S)
    racc s v S = ∑_{k ∈ S} exp (s k − rmax s S) · v k .

  A masked column contributes `exp (⊥ − m) = exp ⊥ = 0` whatever `m` is. Seeing a further block `T` of columns,
  disjoint from those seen, replaces the maximum by `m' = max m (sup_T s)` and, with `α = exp (m − m')`,

    l'   = α · l   + ∑_{k ∈ T} exp (s k − m')
    acc' = α · acc + ∑_{k ∈ T} exp (s k − m') · v k

  (`step`). `step_state` says this is again the state of the columns `S ∪ T`; no case is special: from the empty state
  `(⊥, 0, 0)` the factor `α` is `exp ⊥ = 0`, and a block of masked columns only adds zeros. `foldl_step_init` is the whole
  pass as a fold over a list of pairwise disjoint blocks. At the end, if some column seen is not masked, the normaliser
  is a positive real and `div_racc` divides through: `acc / l = ∑_k (exp (s k − M) / L) · v k`. `state_mono_bot` adds
  columns that are all masked without changing the state (the columns a causal pass never visits).
  `stream_eq_softmax` puts the three together.

  The products distribute because every factor is a real: `exp_sub_coe` reads `exp (a − r)` for a score `a ≠ ⊤` and a
  real `r` as the real `wt a r`, and `coe_sum` moves the coercion out of a finite sum.
-/
import Idealize.ShloMosaic.PureOps.Ideal
import Mathlib

noncomputable section

open scoped BigOperators

namespace Cert.Lib.StreamSoftmax

open Idealize.ShloMosaic

variable {ι : Type} [DecidableEq ι]

/-! ## Reals inside the extended reals -/

/-- A finite sum of reals, read in the extended reals, is the sum of the terms read there. -/
theorem coe_sum (S : Finset ι) (f : ι → ℝ) : ((∑ k ∈ S, f k : ℝ) : EReal) = ∑ k ∈ S, (f k : EReal) := by
  induction S using Finset.induction_on with
  | empty => simp
  | insert a S ha ih => rw [Finset.sum_insert ha, Finset.sum_insert ha, EReal.coe_add, ih]

/-- A finite sum of products of reals is a real. -/
theorem exists_real_sum_mul (S : Finset ι) (f g : ι → EReal) (hf : ∀ k ∈ S, ∃ r : ℝ, f k = (r : EReal))
    (hg : ∀ k ∈ S, ∃ r : ℝ, g k = (r : EReal)) : ∃ r : ℝ, ∑ k ∈ S, f k * g k = (r : EReal) := by
  induction S using Finset.induction_on with
  | empty => exact ⟨0, by simp⟩
  | insert a S ha ih =>
    obtain ⟨r, hr⟩ := ih (fun k hk => hf k (Finset.mem_insert_of_mem hk)) (fun k hk => hg k (Finset.mem_insert_of_mem hk))
    obtain ⟨p, hp⟩ := hf a (Finset.mem_insert_self a S)
    obtain ⟨q, hq⟩ := hg a (Finset.mem_insert_self a S)
    exact ⟨p * q + r, by rw [Finset.sum_insert ha, hr, hp, hq, ← EReal.coe_mul, ← EReal.coe_add]⟩

/-- The weight `exp (a − r)` of a score `a` (a real, or `⊥` for a masked column) against a real shift `r`, as a real. -/
def wt (a : EReal) (r : ℝ) : ℝ := if a = ⊥ then 0 else Real.exp (a.toReal - r)

theorem wt_bot (r : ℝ) : wt ⊥ r = 0 := if_pos rfl

theorem wt_nonneg (a : EReal) (r : ℝ) : 0 ≤ wt a r := by
  unfold wt; split
  · exact le_rfl
  · exact (Real.exp_pos _).le

theorem wt_pos {a : EReal} (ha : a ≠ ⊥) (r : ℝ) : 0 < wt a r := by
  unfold wt; rw [if_neg ha]; exact Real.exp_pos _

/-- Moving the shift from `r` to `r'` multiplies the weight by `exp (r − r')`. -/
theorem wt_rescale (a : EReal) (r r' : ℝ) : Real.exp (r - r') * wt a r = wt a r' := by
  unfold wt; split
  · exact mul_zero _
  · rw [← Real.exp_add]; congr 1; ring

/-- A masked score less anything is still masked, and its exponential is zero. -/
theorem exp_bot_sub (y : EReal) : Ideal.exp (⊥ - y) = 0 := by
  rw [EReal.bot_sub]; rfl

/-- The exponential of a score that is not `⊤`, less a real shift, is the real weight. -/
theorem exp_sub_coe {a : EReal} (ha : a ≠ ⊤) (r : ℝ) : Ideal.exp (a - (r : EReal)) = (wt a r : EReal) := by
  induction a using EReal.rec with
  | bot => rw [exp_bot_sub, wt_bot, EReal.coe_zero]
  | coe y =>
    rw [← EReal.coe_sub]
    show ((Real.exp (y - r) : ℝ) : EReal) = _
    unfold wt
    rw [if_neg (EReal.coe_ne_bot y), EReal.toReal_coe]
  | top => exact absurd rfl ha

/-! ## The state after a set of columns -/

/-- The largest score among the columns `S`; `⊥` when there is none, or when all of them are masked. -/
def rmax (s : ι → EReal) (S : Finset ι) : EReal := S.sup s

/-- The sum over the columns `S` of the exponentials of the scores less their maximum. -/
def rsum (s : ι → EReal) (S : Finset ι) : EReal := ∑ k ∈ S, Ideal.exp (s k - rmax s S)

/-- The sum over the columns `S` of those exponentials times the columns' values. -/
def racc (s : ι → EReal) (v : ι → ℝ) (S : Finset ι) : EReal := ∑ k ∈ S, Ideal.exp (s k - rmax s S) * (v k : EReal)

/-- The triple kept by the pass: running maximum, running normaliser, running weighted sum. -/
def state (s : ι → EReal) (v : ι → ℝ) (S : Finset ι) : EReal × EReal × EReal := (rmax s S, rsum s S, racc s v S)

theorem state_empty (s : ι → EReal) (v : ι → ℝ) : state s v ∅ = (⊥, 0, 0) := by
  simp [state, rmax, rsum, racc]

/-- The normaliser is the weighted sum with every value `1`. -/
theorem rsum_eq_racc_one (s : ι → EReal) (S : Finset ι) : rsum s S = racc s (fun _ => 1) S := by
  unfold rsum racc
  refine Finset.sum_congr rfl fun k _ => ?_
  rw [EReal.coe_one, mul_one]

variable {s : ι → EReal}

/-- With no score `⊤`, no maximum is `⊤`. -/
theorem rmax_ne_top (hs : ∀ k, s k ≠ ⊤) (S : Finset ι) : rmax s S ≠ ⊤ :=
  ((Finset.sup_lt_iff (bot_lt_top (α := EReal))).2 fun k _ => lt_top_iff_ne_top.2 (hs k)).ne

/-- If the maximum over `S` is `⊥`, every column of `S` is masked. -/
theorem eq_bot_of_rmax_bot {S : Finset ι} (h : rmax s S = ⊥) {k : ι} (hk : k ∈ S) : s k = ⊥ :=
  le_bot_iff.1 (h ▸ Finset.le_sup (f := s) hk)

/-- A maximum that is neither `⊥` nor `⊤` is a real. -/
theorem exists_real_of_ne {m : EReal} (hb : m ≠ ⊥) (ht : m ≠ ⊤) : ∃ r : ℝ, m = (r : EReal) := by
  induction m using EReal.rec with
  | bot => exact absurd rfl hb
  | coe y => exact ⟨y, rfl⟩
  | top => exact absurd rfl ht

/-- Shifting the weighted sum over `S` from its own maximum to any bound `m'` of it: multiply by `exp (max − m')`. -/
theorem shift_racc (hs : ∀ k, s k ≠ ⊤) (v : ι → ℝ) (S : Finset ι) {m' : EReal} (hm' : m' ≠ ⊤) (hle : rmax s S ≤ m') :
    Ideal.exp (rmax s S - m') * racc s v S = ∑ k ∈ S, Ideal.exp (s k - m') * (v k : EReal) := by
  by_cases hM : rmax s S = ⊥
  · rw [hM, exp_bot_sub, zero_mul]
    exact (Finset.sum_eq_zero fun k hk => by rw [eq_bot_of_rmax_bot hM hk, exp_bot_sub, zero_mul]).symm
  · obtain ⟨r, hr⟩ := exists_real_of_ne hM (rmax_ne_top hs S)
    obtain ⟨r', hr'⟩ := exists_real_of_ne (fun h => hM (le_bot_iff.1 (h ▸ hle))) hm'
    unfold racc
    rw [hr, hr']
    simp only [exp_sub_coe (hs _), exp_sub_coe (EReal.coe_ne_top r), ← EReal.coe_mul, ← coe_sum]
    congr 1
    rw [Finset.mul_sum]
    refine Finset.sum_congr rfl fun k _ => ?_
    have hw : wt (r : EReal) r' = Real.exp (r - r') := by
      unfold wt; rw [if_neg (EReal.coe_ne_bot r), EReal.toReal_coe]
    rw [hw, ← mul_assoc, wt_rescale]

/-! ## One step, and the whole pass -/

/-- One step of the pass on (running maximum, running normaliser, running weighted sum): take the block's maximum in,
    rescale the old sums to the new maximum, add the block's own terms. -/
def step (s : ι → EReal) (v : ι → ℝ) (st : EReal × EReal × EReal) (T : Finset ι) : EReal × EReal × EReal :=
  (max st.1 (T.sup s),
   Ideal.exp (st.1 - max st.1 (T.sup s)) * st.2.1 + ∑ k ∈ T, Ideal.exp (s k - max st.1 (T.sup s)),
   Ideal.exp (st.1 - max st.1 (T.sup s)) * st.2.2 + ∑ k ∈ T, Ideal.exp (s k - max st.1 (T.sup s)) * (v k : EReal))

/-- A step taken from the state of the columns `S`, with a block `T` disjoint from them, lands on the state of `S ∪ T`. -/
theorem step_state (hs : ∀ k, s k ≠ ⊤) (v : ι → ℝ) {S T : Finset ι} (hd : Disjoint S T) :
    step s v (state s v S) T = state s v (S ∪ T) := by
  have hM : max (rmax s S) (T.sup s) = rmax s (S ∪ T) := (Finset.sup_union (f := s)).symm
  have hle : rmax s S ≤ rmax s (S ∪ T) := Finset.sup_mono Finset.subset_union_left
  have hne : rmax s (S ∪ T) ≠ ⊤ := rmax_ne_top hs (S ∪ T)
  have hl : Ideal.exp (rmax s S - rmax s (S ∪ T)) * rsum s S + ∑ k ∈ T, Ideal.exp (s k - rmax s (S ∪ T))
      = rsum s (S ∪ T) := by
    rw [rsum_eq_racc_one, shift_racc hs _ S hne hle]
    unfold rsum
    rw [Finset.sum_union hd]
    congr 1
    exact Finset.sum_congr rfl fun k _ => by rw [EReal.coe_one, mul_one]
  have ha : Ideal.exp (rmax s S - rmax s (S ∪ T)) * racc s v S
        + ∑ k ∈ T, Ideal.exp (s k - rmax s (S ∪ T)) * (v k : EReal) = racc s v (S ∪ T) := by
    rw [shift_racc hs v S hne hle]
    unfold racc
    rw [Finset.sum_union hd]
  unfold step state
  simp only
  rw [hM, hl, ha]

/-- The whole pass from the state of the columns `S`: folding the step over pairwise disjoint blocks, each disjoint from
    `S`, ends on the state of all the columns seen. -/
theorem foldl_step (hs : ∀ k, s k ≠ ⊤) (v : ι → ℝ) : ∀ (Ts : List (Finset ι)) (S : Finset ι),
    (∀ T ∈ Ts, Disjoint S T) → Ts.Pairwise Disjoint →
    Ts.foldl (step s v) (state s v S) = state s v (Ts.foldl (· ∪ ·) S)
  | [], _, _, _ => rfl
  | T :: Ts, S, hd, hp => by
    rw [List.foldl_cons, List.foldl_cons, step_state hs v (hd T (by simp))]
    refine foldl_step hs v Ts (S ∪ T) (fun T' h => ?_) (List.pairwise_cons.1 hp).2
    rw [Finset.disjoint_union_left]
    exact ⟨hd T' (List.mem_cons_of_mem _ h), (List.pairwise_cons.1 hp).1 T' h⟩

/-- The whole pass from the empty state `(⊥, 0, 0)`. -/
theorem foldl_step_init (hs : ∀ k, s k ≠ ⊤) (v : ι → ℝ) (Ts : List (Finset ι)) (hp : Ts.Pairwise Disjoint) :
    Ts.foldl (step s v) (⊥, 0, 0) = state s v (Ts.foldl (· ∪ ·) ∅) := by
  have h := foldl_step hs v Ts ∅ (fun T _ => Finset.disjoint_empty_left T) hp
  rwa [state_empty] at h

/-! ## Masked columns never visited, and the final division -/

/-- Columns that are all masked can be added to the set seen without changing the maximum. -/
theorem rmax_mono_bot {S S' : Finset ι} (hsub : S ⊆ S') (hbot : ∀ k ∈ S', k ∉ S → s k = ⊥) : rmax s S' = rmax s S := by
  apply le_antisymm
  · refine Finset.sup_le fun k hk => ?_
    by_cases h : k ∈ S
    · exact Finset.le_sup (f := s) h
    · rw [hbot k hk h]; exact bot_le
  · exact Finset.sup_mono hsub

/-- Columns that are all masked can be added to the set seen without changing the state. -/
theorem state_mono_bot (v : ι → ℝ) {S S' : Finset ι} (hsub : S ⊆ S') (hbot : ∀ k ∈ S', k ∉ S → s k = ⊥) :
    state s v S' = state s v S := by
  have hM := rmax_mono_bot hsub hbot
  have hl : rsum s S' = rsum s S := by
    unfold rsum; rw [hM]
    exact (Finset.sum_subset hsub fun k hk hn => by rw [hbot k hk hn, exp_bot_sub]).symm
  have ha : racc s v S' = racc s v S := by
    unfold racc; rw [hM]
    exact (Finset.sum_subset hsub fun k hk hn => by rw [hbot k hk hn, exp_bot_sub, zero_mul]).symm
  unfold state
  rw [hM, hl, ha]

/-- When some column seen is not masked, the normaliser is a positive real, the maximum is a real, and the weighted sum
    divided by the normaliser is the sum of the normalised weights times the values. -/
theorem div_racc (hs : ∀ k, s k ≠ ⊤) (v : ι → ℝ) {S : Finset ι} (hex : ∃ k ∈ S, s k ≠ ⊥) :
    Ideal.div (racc s v S) (rsum s S)
      = ∑ k ∈ S, Ideal.div (Ideal.exp (s k - rmax s S)) (rsum s S) * (v k : EReal) := by
  obtain ⟨k0, hk0, hk0b⟩ := hex
  have hMb : rmax s S ≠ ⊥ := fun h => hk0b (eq_bot_of_rmax_bot h hk0)
  obtain ⟨r, hr⟩ := exists_real_of_ne hMb (rmax_ne_top hs S)
  have hpos : 0 < ∑ k ∈ S, wt (s k) r :=
    Finset.sum_pos' (fun k _ => wt_nonneg _ _) ⟨k0, hk0, wt_pos hk0b r⟩
  have hL : rsum s S = ((∑ k ∈ S, wt (s k) r : ℝ) : EReal) := by
    unfold rsum; rw [hr, coe_sum]
    exact Finset.sum_congr rfl fun k _ => exp_sub_coe (hs k) r
  have hA : racc s v S = ((∑ k ∈ S, wt (s k) r * v k : ℝ) : EReal) := by
    unfold racc; rw [hr, coe_sum]
    exact Finset.sum_congr rfl fun k _ => by rw [exp_sub_coe (hs k) r, EReal.coe_mul]
  rw [hL, hA, hr, Ideal.div_coe hpos.ne', ← EReal.coe_mul, Finset.sum_mul, coe_sum]
  refine Finset.sum_congr rfl fun k _ => ?_
  rw [Ideal.div_coe hpos.ne', exp_sub_coe (hs k) r, ← EReal.coe_mul, ← EReal.coe_mul]
  congr 1
  ring

/-- The streaming pass computes the softmax-weighted sum. Blocks `Ts` pairwise disjoint; `S'` the whole row, of which the
    blocks cover everything that is not masked; some column not masked. Then the final weighted sum divided by the final
    normaliser is `∑_{k ∈ S'} (exp (s k − M) / L) · v k` with `M` and `L` the whole row's maximum and normaliser. -/
theorem stream_eq_softmax (hs : ∀ k, s k ≠ ⊤) (v : ι → ℝ) (Ts : List (Finset ι)) (hp : Ts.Pairwise Disjoint)
    (S' : Finset ι) (hsub : Ts.foldl (· ∪ ·) ∅ ⊆ S') (hbot : ∀ k ∈ S', k ∉ Ts.foldl (· ∪ ·) ∅ → s k = ⊥)
    (hex : ∃ k ∈ S', s k ≠ ⊥) :
    Ideal.div (Ts.foldl (step s v) (⊥, 0, 0)).2.2 (Ts.foldl (step s v) (⊥, 0, 0)).2.1
      = ∑ k ∈ S', Ideal.div (Ideal.exp (s k - S'.sup s)) (∑ j ∈ S', Ideal.exp (s j - S'.sup s)) * (v k : EReal) := by
  rw [foldl_step_init hs v Ts hp, ← state_mono_bot v hsub hbot]
  exact div_racc hs v hex

end Cert.Lib.StreamSoftmax

end
-- ==== Proof.AttnBridge.lean ====
/-
  The streaming arrangement of attention equals the reference arrangement when every input entry is a real.

  With real entries every projection is a real, so every score is a real. The pre-scaled weight moves the factor `1/32`
  from the score into the query projection; in the reals the factor comes out of both sums, and `1 / sqrt 1024` is `1/32`,
  so the two arrangements have the same scores. The four key blocks are pairwise disjoint and cover the row, so the
  streaming pass ends on the whole row's maximum, normaliser and weighted sum, and dividing gives the sum of the
  normalised weights times the values. On the reference side the fold of `max` from `-∞` is the row's supremum, taking
  `max` with `-∞` once more changes nothing, and the sum from `0` is the sum.
-/
import Idealize.ShloMosaic.PureOps.Ideal
import Mathlib
import proofs.«164149_j72249939853362_2_alg».proof.Proof.AttnSpec
import proofs.«164149_j72249939853362_2_alg».proof.Proof.LibStreamSoftmax

noncomputable section

open scoped BigOperators

namespace Cert.Attn

open Idealize.ShloMosaic Cert.Lib.StreamSoftmax

/-! ## The float words -/

/-- The word `0x3D000000` denotes `1/32`. -/
theorem sc_eq : sc = ((1 / 32 : ℝ) : EReal) := by
  unfold sc
  simp [Ideal.ofBits, Ideal.ieee, -EReal.coe_mul]; norm_num

/-- The word `0x3F800000` denotes `1`. -/
theorem word_one : Ideal.ofBits .f32 0x3F800000#32 = ((1 : ℝ) : EReal) := by
  simp [Ideal.ofBits, Ideal.ieee, -EReal.coe_mul]; norm_num

/-- The word `0x44800000` denotes `1024`. -/
theorem word_1024 : Ideal.ofBits .f32 0x44800000#32 = ((1024 : ℝ) : EReal) := by
  simp [Ideal.ofBits, Ideal.ieee, -EReal.coe_mul]; norm_num

/-- The word `0xFF800000` denotes `-∞`. -/
theorem word_neg_inf : Ideal.ofBits .f32 0xFF800000#32 = ⊥ := by
  simp [Ideal.ofBits, Ideal.ieee]

/-- The word `0x00000000` denotes `0`. -/
theorem word_zero : Ideal.ofBits .f32 0x00000000#32 = 0 := by
  simp [Ideal.ofBits, Ideal.ieee]

/-- `1 / sqrt 1024 = 1/32`. -/
theorem refScale_eq : refScale = ((1 / 32 : ℝ) : EReal) := by
  unfold refScale
  rw [word_one, word_1024]
  have h : Real.sqrt 1024 = 32 := by
    rw [show (1024 : ℝ) = 32 ^ 2 by norm_num]
    exact Real.sqrt_sq (by norm_num)
  have h2 : Ideal.sqrt ((1024 : ℝ) : EReal) = ((32 : ℝ) : EReal) := by
    show (if (1024 : ℝ) < 0 then ⊥ else (Real.sqrt 1024 : EReal)) = _
    rw [if_neg (by norm_num), h]
  rw [h2, Ideal.div_coe (by norm_num), ← EReal.coe_mul, one_mul]

/-! ## Real matrices inside the extended reals -/

/-- A real matrix read in the extended reals. -/
def cm {a b : ℕ} (X : Fin a → Fin b → ℝ) : Mat a b := fun i j => (X i j : EReal)

/-- A finite sum of products of reals, read in the extended reals. -/
theorem sum_mul_coe {n : ℕ} (f g : Fin n → ℝ) :
    ∑ k : Fin n, (f k : EReal) * (g k : EReal) = ((∑ k : Fin n, f k * g k : ℝ) : EReal) := by
  rw [coe_sum]
  exact Finset.sum_congr rfl fun k _ => (EReal.coe_mul _ _).symm

/-- The projection of real matrices, in the reals. -/
def projR (X : Fin 4096 → Fin 1024 → ℝ) (W : Fin 1024 → Fin 1024 → ℝ) (i : Fin 4096) (d : Fin 1024) : ℝ :=
  ∑ k : Fin 1024, X i k * W d k

theorem proj_cm (X : Fin 4096 → Fin 1024 → ℝ) (W : Fin 1024 → Fin 1024 → ℝ) : proj (cm X) (cm W) = cm (projR X W) :=
  funext fun i => funext fun d => sum_mul_coe (fun k => X i k) (fun k => W d k)

theorem scaled_cm (W : Fin 1024 → Fin 1024 → ℝ) : scaled (cm W) = cm (fun d k => W d k * (1 / 32)) :=
  funext fun d => funext fun k => by
    show (W d k : EReal) * sc = _
    rw [sc_eq, ← EReal.coe_mul]; rfl

theorem score_cm (Q K : Fin 4096 → Fin 1024 → ℝ) (i j : Fin 4096) :
    score (cm Q) (cm K) i j = ((∑ d : Fin 1024, Q i d * K j d : ℝ) : EReal) :=
  sum_mul_coe (fun d => Q i d) (fun d => K j d)

/-- The factor `1/32` comes out of the query projection and out of the score. -/
theorem score_scaled (X : Fin 4096 → Fin 1024 → ℝ) (Wq Wk : Fin 1024 → Fin 1024 → ℝ) (i j : Fin 4096) :
    score (proj (cm X) (scaled (cm Wq))) (proj (cm X) (cm Wk)) i j = refScore (cm X) (cm Wq) (cm Wk) i j := by
  unfold refScore
  rw [scaled_cm, proj_cm, proj_cm, proj_cm, score_cm, score_cm, refScale_eq, ← EReal.coe_mul]
  congr 1
  rw [Finset.sum_mul]
  refine Finset.sum_congr rfl fun d _ => ?_
  have h : projR X (fun d k => Wq d k * (1 / 32)) i d = projR X Wq i d * (1 / 32) := by
    unfold projR
    rw [Finset.sum_mul]
    exact Finset.sum_congr rfl fun k _ => by ring
  rw [h]; ring

/-! ## The key blocks -/

theorem keyBlock_disjoint {a b : Fin 4} (h : a ≠ b) : Disjoint (keyBlock a) (keyBlock b) :=
  Finset.disjoint_filter.2 fun _ _ ha hb => h (Fin.ext (ha.symm.trans hb))

/-- The four blocks in order. -/
def blocks : List (Finset (Fin 4096)) := List.map keyBlock [0, 1, 2, 3]

theorem blocks_pairwise : blocks.Pairwise Disjoint :=
  List.pairwise_map.2 ((by decide : ([0, 1, 2, 3] : List (Fin 4)).Pairwise (· ≠ ·)).imp keyBlock_disjoint)

theorem blocks_cover (k : Fin 4096) : k ∈ blocks.foldl (· ∪ ·) ∅ := by
  show k ∈ (((∅ ∪ keyBlock 0) ∪ keyBlock 1) ∪ keyBlock 2) ∪ keyBlock 3
  have h0 : ((0 : Fin 4) : ℕ) = 0 := rfl
  have h1 : ((1 : Fin 4) : ℕ) = 1 := rfl
  have h2 : ((2 : Fin 4) : ℕ) = 2 := rfl
  have h3 : ((3 : Fin 4) : ℕ) = 3 := rfl
  simp only [Finset.mem_union, keyBlock, Finset.mem_filter, Finset.mem_univ, true_and, h0, h1, h2, h3]
  have := k.isLt
  omega

/-! ## Folds of `max` -/

/-- The fold of `max` from `-∞` is the supremum. -/
theorem fold_max_bot {ι : Type} (S : Finset ι) (f : ι → EReal) : S.fold max ⊥ f = S.sup f := rfl

/-! ## The two arrangements -/

/-- The streaming pass over the four blocks, for real scores and real values. -/
theorem stream_blocks (s : Fin 4096 → EReal) (vr : Fin 4096 → ℝ) (hs : ∀ j, ∃ r : ℝ, s j = (r : EReal)) :
    Ideal.div (([0, 1, 2, 3] : List (Fin 4)).foldl (fun st b => stepE s (fun j => (vr j : EReal)) st (keyBlock b)) (⊥, 0, 0)).2.2
        (([0, 1, 2, 3] : List (Fin 4)).foldl (fun st b => stepE s (fun j => (vr j : EReal)) st (keyBlock b)) (⊥, 0, 0)).2.1
      = ∑ k : Fin 4096, Ideal.div (Ideal.exp (s k - Finset.univ.sup s)) (∑ j : Fin 4096, Ideal.exp (s j - Finset.univ.sup s))
          * (vr k : EReal) := by
  have hne : ∀ k, s k ≠ ⊤ := fun k => by obtain ⟨r, hr⟩ := hs k; rw [hr]; exact EReal.coe_ne_top r
  have hex : ∃ k ∈ (Finset.univ : Finset (Fin 4096)), s k ≠ ⊥ := by
    obtain ⟨r, hr⟩ := hs 0
    exact ⟨0, Finset.mem_univ _, by rw [hr]; exact EReal.coe_ne_bot r⟩
  exact stream_eq_softmax hne vr blocks blocks_pairwise Finset.univ (Finset.subset_univ _)
    (fun k _ hk => absurd (blocks_cover k) hk) hex

theorem kernelOut_eq_refOut_real (X : Fin 4096 → Fin 1024 → ℝ) (Wq Wk Wv : Fin 1024 → Fin 1024 → ℝ) (i : Fin 4096)
    (c : Fin 1024) : kernelOut (cm X) (cm Wq) (cm Wk) (cm Wv) i c = refOut (cm X) (cm Wq) (cm Wk) (cm Wv) i c := by
  have hsc : score (proj (cm X) (scaled (cm Wq))) (proj (cm X) (cm Wk)) i = refScore (cm X) (cm Wq) (cm Wk) i :=
    funext fun j => score_scaled X Wq Wk i j
  have hreal : ∀ j, ∃ r : ℝ, refScore (cm X) (cm Wq) (cm Wk) i j = (r : EReal) := fun j => by
    unfold refScore
    rw [proj_cm, proj_cm, score_cm, refScale_eq, ← EReal.coe_mul]
    exact ⟨_, rfl⟩
  have hM : refMax (cm X) (cm Wq) (cm Wk) i = Finset.univ.sup (refScore (cm X) (cm Wq) (cm Wk) i) := by
    unfold refMax
    rw [word_neg_inf, fold_max_bot, max_eq_right bot_le]
  have hL : refSum (cm X) (cm Wq) (cm Wk) i
      = ∑ j : Fin 4096, Ideal.exp (refScore (cm X) (cm Wq) (cm Wk) i j - Finset.univ.sup (refScore (cm X) (cm Wq) (cm Wk) i)) := by
    unfold refSum refExp
    rw [word_zero, zero_add, hM]
  have hv : (fun j => proj (cm X) (cm Wv) j c) = fun j => ((projR X Wv j c : ℝ) : EReal) := by
    rw [proj_cm]; rfl
  unfold kernelOut
  simp only []
  rw [hsc, hv, stream_blocks _ _ hreal]
  unfold refOut
  refine Finset.sum_congr rfl fun j _ => ?_
  rw [hL]
  unfold refExp
  rw [hM, proj_cm]
  rfl

/-- The two arrangements agree whenever every input entry is a real. -/
theorem kernelOut_eq_refOut (x : Mat 4096 1024) (wq wk wv : Mat 1024 1024) (hx : ∀ i k, ∃ r : ℝ, x i k = (r : EReal))
    (hq : ∀ d k, ∃ r : ℝ, wq d k = (r : EReal)) (hk : ∀ d k, ∃ r : ℝ, wk d k = (r : EReal))
    (hv : ∀ d k, ∃ r : ℝ, wv d k = (r : EReal)) (i : Fin 4096) (c : Fin 1024) :
    kernelOut x wq wk wv i c = refOut x wq wk wv i c := by
  choose X hX using hx
  choose Wq hWq using hq
  choose Wk hWk using hk
  choose Wv hWv using hv
  obtain rfl : x = cm X := funext fun a => funext fun b => hX a b
  obtain rfl : wq = cm Wq := funext fun a => funext fun b => hWq a b
  obtain rfl : wk = cm Wk := funext fun a => funext fun b => hWk a b
  obtain rfl : wv = cm Wv := funext fun a => funext fun b => hWv a b
  exact kernelOut_eq_refOut_real X Wq Wk Wv i c

end Cert.Attn

end
-- ==== Proof.LibTransposedDot.lean ====
/-
  A matrix product with the right operand contracted on its last axis, read at an index, at the ideal values.

  For the dimension numbers of an `[M, K]` by `[N, K]` product (contract the second axis of both operands; no batch
  axis: `l · rᵀ`) the contraction index has one coordinate, so the sum over it is a sum over `k : Fin K`, and the
  operand indices at the result index `(p, q)` are `(p, k)` and `(q, k)`. Hence, on the extended reals, the host's
  `dot_general` over these dimension numbers is `rowsDot`: entry `(p, q)` is `∑ k, l (p, k) * r (q, k)`, the dot
  product of row `p` of the left operand with row `q` of the right one.
-/
import Idealize.ShloMosaic.PureOps.Ideal.Laws
import Idealize.ShloMosaic.Lib.ValueIdx

noncomputable section

namespace Cert.LibTransposedDot

open Idealize.ShloMosaic Idealize.ShloMosaic.ValueIdx

/-- The products of the rows of an `[M, K]` array of extended reals with the rows of an `[N, K]` one: entry `(p, q)` is
    the sum over `k` of `l (p, k) * r (q, k)`. -/
def rowsDot {M K N : ℕ} (l : (⟨2, ![M, K]⟩ : Shape).Idx → EReal) (r : (⟨2, ![N, K]⟩ : Shape).Idx → EReal) :
    (⟨2, ![M, N]⟩ : Shape).Idx → EReal :=
  fun j => ∑ k : Fin K, l (ix2 (⟨(j 0).val, idx2_lt0 j⟩ : Fin M) k) * r (ix2 (⟨(j 1).val, idx2_lt1 j⟩ : Fin N) k)

theorem rowsDot_apply {M K N : ℕ} (l : (⟨2, ![M, K]⟩ : Shape).Idx → EReal) (r : (⟨2, ![N, K]⟩ : Shape).Idx → EReal)
    (p : Fin M) (q : Fin N) : rowsDot l r (ix2 p q) = ∑ k : Fin K, l (ix2 p k) * r (ix2 q k) := rfl

/-- These dimension numbers contract one axis, of extent `K`. -/
theorem tr_contr_rank (M K N : ℕ) : (DotDims.transposedRhs M K N).contr.rank = 1 := rfl
theorem tr_contr_size (M K N : ℕ) :
    (DotDims.transposedRhs M K N).contr.size ⟨0, by rw [tr_contr_rank]; exact Nat.one_pos⟩ = K := rfl

/-- The operands' indices at result index `j` and contraction index `q`: the left operand's row follows the result's
    row, the right operand's row the result's column, and both contracted axes the contraction coordinate. -/
theorem tr_lhs0 (M K N : ℕ) (j : (⟨2, ![M, N]⟩ : Shape).Idx) (q : (DotDims.transposedRhs M K N).contr.Idx) :
    ((DotDims.transposedRhs M K N).lhsIdx j q 0).val = (j 0).val := rfl
theorem tr_lhs1 (M K N : ℕ) (j : (⟨2, ![M, N]⟩ : Shape).Idx) (q : (DotDims.transposedRhs M K N).contr.Idx) :
    ((DotDims.transposedRhs M K N).lhsIdx j q 1).val = (q ⟨0, by rw [tr_contr_rank]; exact Nat.one_pos⟩).val := rfl
theorem tr_rhs0 (M K N : ℕ) (j : (⟨2, ![M, N]⟩ : Shape).Idx) (q : (DotDims.transposedRhs M K N).contr.Idx) :
    ((DotDims.transposedRhs M K N).rhsIdx j q 0).val = (j 1).val := rfl
theorem tr_rhs1 (M K N : ℕ) (j : (⟨2, ![M, N]⟩ : Shape).Idx) (q : (DotDims.transposedRhs M K N).contr.Idx) :
    ((DotDims.transposedRhs M K N).rhsIdx j q 1).val = (q ⟨0, by rw [tr_contr_rank]; exact Nat.one_pos⟩).val := rfl

/-- The sum over the contraction index of the operands' products is `rowsDot`. -/
theorem tr_sum {M K N : ℕ} (l : (⟨2, ![M, K]⟩ : Shape).Idx → EReal) (r : (⟨2, ![N, K]⟩ : Shape).Idx → EReal)
    (j : (⟨2, ![M, N]⟩ : Shape).Idx) :
    ∑ q : (DotDims.transposedRhs M K N).contr.Idx,
        l ((DotDims.transposedRhs M K N).lhsIdx j q) * r ((DotDims.transposedRhs M K N).rhsIdx j q)
      = rowsDot l r j := by
  unfold rowsDot
  rw [← Equiv.sum_comp (contrEquiv1 (DotDims.transposedRhs M K N) K (tr_contr_rank M K N) (tr_contr_size M K N)).symm]
  refine Finset.sum_congr rfl fun k _ => ?_
  have hk := contrEquiv1_symm_val (DotDims.transposedRhs M K N) K (tr_contr_rank M K N) (tr_contr_size M K N) k
  have el : (DotDims.transposedRhs M K N).lhsIdx j
        ((contrEquiv1 (DotDims.transposedRhs M K N) K (tr_contr_rank M K N) (tr_contr_size M K N)).symm k)
      = ix2 (⟨(j 0).val, idx2_lt0 j⟩ : Fin M) k := funext fun a => Fin.ext (by
    match a with
    | ⟨0, _⟩ => exact tr_lhs0 M K N j _
    | ⟨1, _⟩ => exact (tr_lhs1 M K N j _).trans hk)
  have er : (DotDims.transposedRhs M K N).rhsIdx j
        ((contrEquiv1 (DotDims.transposedRhs M K N) K (tr_contr_rank M K N) (tr_contr_size M K N)).symm k)
      = ix2 (⟨(j 1).val, idx2_lt1 j⟩ : Fin N) k := funext fun a => Fin.ext (by
    match a with
    | ⟨0, _⟩ => exact tr_rhs0 M K N j _
    | ⟨1, _⟩ => exact (tr_rhs1 M K N j _).trans hk)
  rw [el, er]

/-- The host's `dot_general` over these dimension numbers is `rowsDot`, whatever the schedule. -/
theorem dotGeneral_transposedRhs {M K N : ℕ} {φ₁ φ₂ : FTy} (prec : Option ContractPrecision) (sched : HostSchedule)
    (l : FVec Ideal ⟨2, ![M, K]⟩ φ₁) (r : FVec Ideal ⟨2, ![N, K]⟩ φ₂) :
    FloatOps.dotGeneral (DotDims.transposedRhs M K N) prec sched l r = rowsDot l r :=
  funext fun j => (Ideal.dotGeneral_apply (DotDims.transposedRhs M K N) prec sched l r j).trans (tr_sum l r j)

end Cert.LibTransposedDot

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibLayout3.lean ====
/-
  Layout steps of a rank-3 broadcast-and-reduce, and row maxima, read at an index.

  A row `[a, b]` set beside thirty-two centres is first cast to `[a, 1, b]` and broadcast along the unit axis;
  the centres `[b, c]` are cast to `[1, b, c]` and broadcast along theirs. A sum over the last axis of an
  `[A, B, C]` array with the zero accumulator is, at `(i, j)`, the sum over `k` of the entries `(i, j, k)`.
  A maximum along the rows of an `[R, W]` array — the vector unit's reduction from its accumulator's value, or the
  host's from its initial value — is the fold of `max` over the row's entries from that value. A column `[a, 1]`
  cast to the vector `[a]` reads its entry `(i, 0)`. All are stated at indices built from literal coordinates.
-/
import Idealize.ShloMosaic.PureOps.Ideal.Laws
import Idealize.ShloMosaic.Lib.Pipeline.Value
import Idealize.ShloMosaic.Lib.ValueIdx
import Idealize.ShloMosaic.Lib.IdealHost

namespace Cert.Layout3

open Idealize.ShloMosaic Idealize.ShloMosaic.ValueIdx
open scoped BigOperators

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1]` column cast to the vector `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

variable {A B C R W : ℕ}

/-- Over `(i, j)`, the index with the last coordinate `k` inserted is `(i, j, k)`. -/
theorem lift_last (h : (⟨3, ![A, B, C]⟩ : Shape).Reduces [2] ⟨2, ![A, B]⟩) (i : Fin A) (j : Fin B) (k : Fin C) :
    h.lift (ix2 i j) k = ix3 i j k := by
  funext c
  match c with
  | ⟨0, _⟩ => exact Fin.ext rfl
  | ⟨1, _⟩ => exact Fin.ext rfl
  | ⟨2, _⟩ => exact Fin.ext rfl

/-- A sum over the last axis with the zero accumulator, at `(i, j)`: the sum of the entries `(i, j, k)`. -/
theorem lastSumK (src : FVec Ideal ⟨3, ![A, B, C]⟩ .f32) (h : (⟨3, ![A, B, C]⟩ : Shape).Reduces [2] ⟨2, ![A, B]⟩)
    (hφ : FKind.Formats .f32) (hacc : (0x00000000#32 : BitVec 32) = 0x00000000#32) (i : Fin A) (j : Fin B) :
    multiReduction .add [2] ⟨2, ![A, B]⟩ src 0x00000000#32 h hφ hacc (ix2 i j) = ∑ k : Fin C, src (ix3 i j k) := by
  refine (Ideal.multiReduction_add_single src _ h hφ hacc (ix2 i j)).trans ?_
  exact Finset.sum_congr rfl fun k _ => congrArg src (lift_last h i j k)

/-- Over row `r`, the index with column `k` inserted is `(r, k)`. -/
theorem lift_row (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- The vector unit's maximum along the rows, at row `r`: the fold of `max` over the row from the accumulator's value. -/
theorem rowMaxK (src : FVec Ideal ⟨2, ![R, W]⟩ .f32) (acc : BitVec 32) (h : (⟨2, ![R, W]⟩ : Shape).Reduces [1] ⟨1, ![R]⟩)
    (hφ : FKind.Formats .f32) (hacc : acc = FKind.maximumf.neutral .f32 hφ) (r : Fin R) :
    multiReduction .maximumf [1] ⟨1, ![R]⟩ src acc h hφ hacc (ix1 r)
      = (Finset.univ : Finset (Fin W)).fold max (Ideal.ofBits .f32 acc) (fun k => src (ix2 r k)) := by
  refine (Ideal.multiReduction_maximumf_single src acc h hφ hacc (ix1 r)).trans ?_
  exact congrArg (Finset.fold max (Ideal.ofBits .f32 acc) · Finset.univ) (funext fun k => congrArg src (lift_row h r k))

/-- The host's maximum along the rows from an initial value, at row `r`: the same fold from that value. -/
theorem rowMaxH {u : Shape} (x : FVec Ideal ⟨2, ![R, W]⟩ .f32) (init : u.Idx → Ideal .f32)
    (h : (⟨2, ![R, W]⟩ : Shape).ReducesTo [1] ⟨1, ![R]⟩) (hu : 0 < u.numel) (r : Fin R) :
    Host.reduce FloatOps.maximumf x init h hu (ix1 r)
      = (Finset.univ : Finset (Fin W)).fold max (init (Shape.Idx.first hu)) (fun k => x (ix2 r k)) := by
  have h' : (⟨2, ![R, W]⟩ : Shape).Reduces [1] ⟨1, ![R]⟩ := h.elim fun e hb => ⟨e, Nat.one_pos, hb⟩
  refine (Host.reduce_eq_fold_single FloatOps.maximumf x init h h' hu (ix1 r)).trans ?_
  exact congrArg (Finset.fold max (init (Shape.Idx.first hu)) · Finset.univ) (funext fun k => congrArg x (lift_row h' r k))

end Cert.Layout3
-- ==== Proof.LibRowOps.lean ====
/-
  Rows of a matrix read at an index, for any number of rows `R` and any width `W`.

  A sum along the rows of an `[R, W]` array — the vector unit's lane reduction with a zero accumulator, or the
  host's reduce from an initial value — is, at row `r`, the sum over `k : Fin W` of the entries `(r, k)`
  (the host's: the initial value plus that sum). A vector `[R]` broadcast to a column `[R, 1]` reads its entry
  `r`, and a column `[R, 1]` broadcast along its unit axis to `[R, W]` reads its entry `(r, 0)`. All are stated at
  indices built from literal coordinates, so they rewrite a payload whatever the width.
-/
import Idealize.ShloMosaic.PureOps.Ideal.Laws
import Idealize.ShloMosaic.Lib.Pipeline.Value
import Idealize.ShloMosaic.Lib.ValueIdx
import Idealize.ShloMosaic.Lib.IdealHost

namespace Cert.RowOps

open Idealize.ShloMosaic Idealize.ShloMosaic.ValueIdx
open scoped BigOperators

variable {R W : ℕ} {α : Type}

/-- Over row `r`, the index with column `k` inserted is `(r, k)`. -/
theorem lift_row (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- A lane sum with the zero accumulator, at row `r`: the sum of the row's entries. -/
theorem rowSumK (src : FVec Ideal ⟨2, ![R, W]⟩ .f32) (h : (⟨2, ![R, W]⟩ : Shape).Reduces [1] ⟨1, ![R]⟩)
    (hφ : FKind.Formats .f32) (hacc : (0x00000000#32 : BitVec 32) = 0x00000000#32) (r : Fin R) :
    multiReduction .add [1] ⟨1, ![R]⟩ src 0x00000000#32 h hφ hacc (ix1 r) = ∑ k : Fin W, src (ix2 r k) := by
  refine (Ideal.multiReduction_add_single src _ h hφ hacc (ix1 r)).trans ?_
  exact Finset.sum_congr rfl fun k _ => congrArg src (lift_row h r k)

/-- The host's sum along the rows from an initial value, at row `r`: that value plus the sum of the row's entries. -/
theorem rowSumH {u : Shape} (x : FVec Ideal ⟨2, ![R, W]⟩ .f32) (init : u.Idx → Ideal .f32)
    (h : (⟨2, ![R, W]⟩ : Shape).ReducesTo [1] ⟨1, ![R]⟩) (hu : 0 < u.numel) (r : Fin R) :
    Host.reduceAdd x init h hu (ix1 r) = init (Shape.Idx.first hu) + ∑ k : Fin W, x (ix2 r k) := by
  have h' : (⟨2, ![R, W]⟩ : Shape).Reduces [1] ⟨1, ![R]⟩ := h.elim fun e hb => ⟨e, Nat.one_pos, hb⟩
  refine (hostReduceAdd_apply x init h hu (ix1 r)).trans ?_
  refine (Ideal.hostReduceAdd_single h h' x _ (ix1 r)).trans ?_
  exact congrArg _ (Finset.sum_congr rfl fun k _ => congrArg x (lift_row h' r k))

/-- A vector `[R]` broadcast to a column `[R, 1]` reads, at `(r, u)`, its entry `r`. -/
theorem bcastCol (v : (⟨1, ![R]⟩ : Shape).Idx → α)
    (h : (⟨1, ![R]⟩ : Shape).BroadcastsInDim ⟨2, ![R, 1]⟩ (![0] : Fin 1 → Fin 2)) (r : Fin R) (u : Fin 1) :
    broadcastInDim ⟨2, ![R, 1]⟩ (![0] : Fin 1 → Fin 2) h v (ix2 r u) = v (ix1 r) := by
  refine broadcastInDim_apply _ h v (ix2 r u) (ix1 r) fun a => ?_
  match a with
  | ⟨0, _⟩ =>
    show r.val = if R = 1 then 0 else r.val
    split
    · have := r.isLt; omega
    · rfl

/-- A column `[R, 1]` broadcast to `[R, W]` reads, at `(r, k)`, its entry `(r, 0)`. -/
theorem bcastRows (v : (⟨2, ![R, 1]⟩ : Shape).Idx → α)
    (h : (⟨2, ![R, 1]⟩ : Shape).BroadcastsInDim ⟨2, ![R, W]⟩ (![0, 1] : Fin 2 → Fin 2)) (r : Fin R) (k : Fin W) :
    broadcastInDim ⟨2, ![R, W]⟩ (![0, 1] : Fin 2 → Fin 2) h v (ix2 r k) = v (ix2 r (0 : Fin 1)) := by
  refine broadcastInDim_apply _ h v (ix2 r k) (ix2 r (0 : Fin 1)) fun a => ?_
  match a with
  | ⟨0, _⟩ =>
    show r.val = if R = 1 then 0 else r.val
    split
    · have := r.isLt; omega
    · rfl
  | ⟨1, _⟩ => rfl

end Cert.RowOps
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.IdealRegion1ValueRow.lean ====
/-
  One step of the attention body on one row, at the ideal values.

  The body's payloads are read at an index built from literal coordinates. With `q`, `k`, `v` the query, key and value
  blocks, `m`, `l` the running maximum and sum (one column each) and `acc` the accumulator: the scores of row `r` are the
  inner products of row `r` of `q` with the rows of `k`; the new maximum is the old one against the fold of `max` over
  the row's scores from the word of `-∞`; the old sums are rescaled by `exp (old − new)`; every score less the new maximum
  is exponentiated; the new sum adds the row's exponentials, the new accumulator their products with the column of `v`.
  That is one step `stepE` of the streaming pass over the block's 1024 keys (`row_step`). A block of 1024 consecutive
  keys of the whole row, re-indexed by its local key, gives the same step (`stepE_block`).
-/
import proofs.«164149_j72249939853362_2_alg».proof.Proof.Gen.KernelIdeal.Skeleton
import proofs.«164149_j72249939853362_2_alg».proof.Proof.AttnSpec
import proofs.«164149_j72249939853362_2_alg».proof.Proof.AttnBridge
import proofs.«164149_j72249939853362_2_alg».proof.Proof.LibTransposedDot
import proofs.«164149_j72249939853362_2_alg».proof.Proof.LibPlainDot
import proofs.«164149_j72249939853362_2_alg».proof.Proof.LibLayout3
import proofs.«164149_j72249939853362_2_alg».proof.Proof.LibRowOps
import proofs.«164149_j72249939853362_2_alg».proof.Proof.LibColumns
import Idealize.ShloMosaic.Lib.Pipeline.Value
import Idealize.ShloMosaic.Lib.ValueIdx

noncomputable section

open scoped BigOperators

namespace Cert.KernelIdeal.HandValue

open Cert.KernelIdeal Cert.KernelIdeal.Gen Idealize.ShloMosaic Idealize.ShloMosaic.ValueIdx
open Cert.LibTransposedDot Cert.LibPlainDot

variable (x0 x1 x2 : FVec Ideal S1024x1024 .bf16) (m l : FVec Ideal S1024x1 .f32) (acc : FVec Ideal S1024x1024 .f32)

theorem dotT_eq : dot_S1024x1024_S1024x1024_S1024x1024_1_1_0_0_n_n = DotDims.transposedRhs 1024 1024 1024 := rfl
theorem dotP_eq : dot_S1024x1024_S1024x1024_S1024x1024_1_0_0_1_n_n = DotDims.plain 1024 1024 1024 := rfl

/-- The scores: rows of the query block against rows of the key block. -/
theorem pay7_eq : k1_pay7 (F := Ideal) x0 x1 = rowsDot x0 x1 := by
  unfold k1_pay7
  simp only [shapeCast_self]
  funext j
  exact (Ideal.matmul_constant_zero_apply (φ₁ := .bf16) (φ₂ := .bf16) (DotDims.transposedRhs 1024 1024 1024) none x0 x1 j).trans (tr_sum x0 x1 j)

/-- The new maximum of row `r`. -/
theorem pay8_at (r : Fin 1024) :
    k1_pay8 (F := Ideal) x0 x1 m (ix2 r (0 : Fin 1))
      = max (m (ix2 r (0 : Fin 1)))
          ((Finset.univ : Finset (Fin 1024)).fold max (Ideal.ofBits .f32 0xFF800000#32) (fun j => rowsDot x0 x1 (ix2 r j))) := by
  unfold k1_pay8
  rw [pay7_eq]
  refine congrArg (max (m (ix2 r (0 : Fin 1)))) ?_
  refine (Cert.Columns.shapeCast_a_a1_apply _ _ r 0).trans ?_
  exact Cert.Layout3.rowMaxK (R := 1024) (W := 1024) (rowsDot x0 x1) _ _ _ _ r

/-- The rescaling factor of row `r`. -/
theorem pay9_at (r : Fin 1024) :
    k1_pay9 (F := Ideal) x0 x1 m m (ix2 r (0 : Fin 1))
      = Ideal.exp (m (ix2 r (0 : Fin 1)) - k1_pay8 (F := Ideal) x0 x1 m (ix2 r (0 : Fin 1))) := rfl

/-- The exponential of the score of row `r` against key `j`. -/
theorem pay10_at (r j : Fin 1024) :
    k1_pay10 (F := Ideal) x0 x1 m (ix2 r j)
      = Ideal.exp (rowsDot x0 x1 (ix2 r j) - k1_pay8 (F := Ideal) x0 x1 m (ix2 r (0 : Fin 1))) := by
  unfold k1_pay10
  rw [pay7_eq]
  refine congrArg (fun z => Ideal.exp (rowsDot x0 x1 (ix2 r j) - z)) ?_
  exact Cert.Columns.broadcastTo_a1_ab_apply _ _ r j

/-- The new sum of row `r`. -/
theorem pay11_at (r : Fin 1024) :
    k1_pay11 (F := Ideal) x0 x1 m m l (ix2 r (0 : Fin 1))
      = k1_pay9 (F := Ideal) x0 x1 m m (ix2 r (0 : Fin 1)) * l (ix2 r (0 : Fin 1))
        + ∑ j : Fin 1024, k1_pay10 (F := Ideal) x0 x1 m (ix2 r j) := by
  unfold k1_pay11
  simp only [shapeCast_self]
  refine congrArg (k1_pay9 (F := Ideal) x0 x1 m m (ix2 r (0 : Fin 1)) * l (ix2 r (0 : Fin 1)) + ·) ?_
  refine (Cert.Columns.shapeCast_a_a1_apply _ _ r 0).trans ?_
  exact Cert.RowOps.rowSumK (R := 1024) (W := 1024) (k1_pay10 (F := Ideal) x0 x1 m) _ _ _ r

/-- The new accumulator at `(r, e)`. -/
theorem pay12_at (r e : Fin 1024) :
    k1_pay12 (F := Ideal) x0 x1 m m acc x2 (ix2 r e)
      = k1_pay9 (F := Ideal) x0 x1 m m (ix2 r (0 : Fin 1)) * acc (ix2 r e)
        + ∑ j : Fin 1024, k1_pay10 (F := Ideal) x0 x1 m (ix2 r j) * x2 (ix2 j e) := by
  unfold k1_pay12
  simp only [shapeCast_self]
  have hb : broadcastTo S1024x1024 (k1_pay9 (F := Ideal) x0 x1 m m) broadcasts_S1024x1_S1024x1024 (ix2 r e)
      = k1_pay9 (F := Ideal) x0 x1 m m (ix2 r (0 : Fin 1)) := Cert.Columns.broadcastTo_a1_ab_apply _ _ r e
  have hm : FloatOps.matmul (φ₁ := .bf16) (φ₂ := .bf16) (DotDims.plain 1024 1024 1024) none
        (truncf .bf16 (k1_pay10 (F := Ideal) x0 x1 m) bitsLt_bf16_f32 : FVec Ideal S1024x1024 .bf16) x2
        (constant S1024x1024 .f32 0x00000000#32) (ix2 r e)
      = ∑ j : Fin 1024, k1_pay10 (F := Ideal) x0 x1 m (ix2 r j) * x2 (ix2 j e) :=
    (congrFun (matmul_zero_plain (φ₁ := .bf16) (φ₂ := .bf16) none
      (truncf .bf16 (k1_pay10 (F := Ideal) x0 x1 m) bitsLt_bf16_f32 : FVec Ideal S1024x1024 .bf16) x2) (ix2 r e)).trans
      (rowsTimes_apply _ _ r e)
  exact congrArg₂ (fun a b => a * acc (ix2 r e) + b) hb hm

/-- The stored quotient at `(r, e)`. -/
theorem pay3_at (r e : Fin 1024) :
    k1_pay3 (F := Ideal) acc l (ix2 r e) = Ideal.div (acc (ix2 r e)) (l (ix2 r (0 : Fin 1))) := by
  unfold k1_pay3
  exact congrArg (Ideal.div (acc (ix2 r e))) (Cert.Columns.broadcastTo_a1_ab_apply _ _ r e)

theorem pay1_eq : k1_pay1 (F := Ideal) acc = acc := by unfold k1_pay1; exact shapeCast_self _ _
theorem pay2_eq : k1_pay2 (F := Ideal) m = m := by unfold k1_pay2; exact shapeCast_self _ _

/-- The reset values: `-∞`, `0`, `0`. -/
theorem pay4_at (i : S1024x1.Idx) : k1_pay4 (F := Ideal) i = ⊥ := by
  unfold k1_pay4
  simp only [shapeCast_self]
  exact Cert.Attn.word_neg_inf
theorem pay5_at (i : S1024x1.Idx) : k1_pay5 (F := Ideal) i = 0 := by
  unfold k1_pay5
  simp only [shapeCast_self]
  exact Cert.Attn.word_zero
theorem pay6_at (i : S1024x1024.Idx) : k1_pay6 (F := Ideal) i = 0 := by
  unfold k1_pay6
  simp only [shapeCast_self]
  exact Cert.Attn.word_zero

/-- One step of the body on row `r` and column `e` is one step of the streaming pass over the block's keys. -/
theorem row_step (r e : Fin 1024) :
    (k1_pay8 (F := Ideal) x0 x1 m (ix2 r (0 : Fin 1)), k1_pay11 (F := Ideal) x0 x1 m m l (ix2 r (0 : Fin 1)),
        k1_pay12 (F := Ideal) x0 x1 m m acc x2 (ix2 r e))
      = Cert.Attn.stepE (fun j : Fin 1024 => ∑ d : Fin 1024, x0 (ix2 r d) * x1 (ix2 j d)) (fun j : Fin 1024 => x2 (ix2 j e))
          (m (ix2 r (0 : Fin 1)), l (ix2 r (0 : Fin 1)), acc (ix2 r e)) Finset.univ := by
  have h8 : k1_pay8 (F := Ideal) x0 x1 m (ix2 r (0 : Fin 1))
      = max (m (ix2 r (0 : Fin 1))) ((Finset.univ : Finset (Fin 1024)).sup fun j : Fin 1024 => ∑ d : Fin 1024, x0 (ix2 r d) * x1 (ix2 j d)) := by
    rw [pay8_at, Cert.Attn.word_neg_inf, Cert.Attn.fold_max_bot]
    rfl
  unfold Cert.Attn.stepE
  refine Prod.ext h8 (Prod.ext ?_ ?_)
  · show k1_pay11 (F := Ideal) x0 x1 m m l (ix2 r (0 : Fin 1)) = _
    rw [pay11_at, pay9_at, h8]
    refine congrArg (_ + ·) (Finset.sum_congr rfl fun j _ => ?_)
    rw [pay10_at, h8]
    rfl
  · show k1_pay12 (F := Ideal) x0 x1 m m acc x2 (ix2 r e) = _
    rw [pay12_at, pay9_at, h8]
    refine congrArg (_ + ·) (Finset.sum_congr rfl fun j _ => ?_)
    rw [pay10_at, h8]
    rfl

/-! ## A block of consecutive keys, re-indexed by its local key -/

/-- Local key `jj` of block `b` is key `1024 b + jj`. -/
def keyOf (b : Fin 4) : Fin 1024 ↪ Fin 4096 :=
  ⟨fun jj => ⟨1024 * b.val + jj.val, by have := b.isLt; have := jj.isLt; omega⟩, fun a a' h => by
    have := congrArg Fin.val h
    exact Fin.ext (by simp only at this; omega)⟩

theorem keyBlock_eq_map (b : Fin 4) : Cert.Attn.keyBlock b = Finset.univ.map (keyOf b) := by
  ext j
  simp only [Cert.Attn.keyBlock, Finset.mem_filter, Finset.mem_univ, true_and, Finset.mem_map, keyOf,
    Function.Embedding.coeFn_mk]
  constructor
  · intro h
    refine ⟨⟨j.val % 1024, Nat.mod_lt _ (by norm_num)⟩, Fin.ext ?_⟩
    show 1024 * b.val + j.val % 1024 = j.val
    omega
  · rintro ⟨jj, rfl⟩
    show (1024 * b.val + jj.val) / 1024 = b.val
    have := jj.isLt
    omega

/-- A step over key block `b` of the whole row is the step over the block's local keys. -/
theorem stepE_block (f v : Fin 4096 → EReal) (st : EReal × EReal × EReal) (b : Fin 4) :
    Cert.Attn.stepE f v st (Cert.Attn.keyBlock b)
      = Cert.Attn.stepE (fun jj : Fin 1024 => f (keyOf b jj)) (fun jj : Fin 1024 => v (keyOf b jj)) st Finset.univ := by
  unfold Cert.Attn.stepE
  rw [keyBlock_eq_map]
  simp only [Finset.sup_map, Finset.sum_map]
  rfl

end Cert.KernelIdeal.HandValue

end
-- ==== Proof.IdealRegion1ValueBlocks.lean ====
/-
  The attention region's input blocks, read off the array the region finds.

  The three input windows cut ONE array of 4096 rows and 3072 columns: its first 1024 columns are the queries, the next
  1024 the keys, the last 1024 the values. At grid position `t = 4 qb + kb` the query window holds rows
  `1024 qb …` of the first column block, the key and value windows rows `1024 kb …` of the second and third.
-/
import proofs.«164149_j72249939853362_2_alg».proof.Proof.FrameKernelIdealRegion1
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

/-- The printed index maps, decided once over the grid. -/
theorem idx1 : ∀ t : Fin cfg1.N, win1_0.index t (0 : Fin 2) = t.val / 4 ∧ win1_0.index t (1 : Fin 2) = 0
    ∧ win1_1.index t (0 : Fin 2) = t.val % 4 ∧ win1_1.index t (1 : Fin 2) = 1
    ∧ win1_2.index t (0 : Fin 2) = t.val % 4 ∧ win1_2.index t (1 : Fin 2) = 2
    ∧ win1_3.index t (0 : Fin 2) = t.val / 4 ∧ win1_3.index t (1 : Fin 2) = 0 :=
  (by decide +kernel : ∀ t : Fin grid1.N, _)

theorem N1 : cfg1.N = 16 := N_1

/-- The query block at `(r, d)`: entry `(a, b)` of the array, for the row `a` and column `b` the window's position gives. -/
theorem iblk0_at (c : Dev nD) (t : Fin cfg1.N) (r d : Fin 1024) (a : Fin 4096) (b : Fin 3072)
    (ha : a.val = 1024 * (t.val / 4) + r.val) (hb : b.val = d.val) :
    (iblk1 V c 0 t : Vec F S1024x1024 .bf16) (ix2 r d) = (V c main_v5 : S4096x3072.Idx → Elt F .bf16) (ix2 a b) := by
  obtain ⟨e0, e1, -⟩ := idx1 t
  unfold iblk1
  rw [View.read_apply]
  show V c main_v5 _ = V c main_v5 _
  refine congrArg (V c main_v5) (funext fun ax => Fin.ext ?_)
  match ax with
  | ⟨0, _⟩ => show win1_0.index t (0 : Fin 2) * 1024 + 1 * r.val = a.val; rw [e0, ha]; omega
  | ⟨1, _⟩ => show win1_0.index t (1 : Fin 2) * 1024 + 1 * d.val = b.val; rw [e1, hb]; omega

/-- The key block at `(r, d)`: entry `(a, b)` of the array, for the row `a` and column `b` the window's position gives. -/
theorem iblk1_at (c : Dev nD) (t : Fin cfg1.N) (r d : Fin 1024) (a : Fin 4096) (b : Fin 3072)
    (ha : a.val = 1024 * (t.val % 4) + r.val) (hb : b.val = 1024 + d.val) :
    (iblk1 V c 1 t : Vec F S1024x1024 .bf16) (ix2 r d) = (V c main_v5 : S4096x3072.Idx → Elt F .bf16) (ix2 a b) := by
  obtain ⟨-, -, e0, e1, -⟩ := idx1 t
  unfold iblk1
  rw [View.read_apply]
  show V c main_v5 _ = V c main_v5 _
  refine congrArg (V c main_v5) (funext fun ax => Fin.ext ?_)
  match ax with
  | ⟨0, _⟩ => show win1_1.index t (0 : Fin 2) * 1024 + 1 * r.val = a.val; rw [e0, ha]; omega
  | ⟨1, _⟩ => show win1_1.index t (1 : Fin 2) * 1024 + 1 * d.val = b.val; rw [e1, hb]; omega

/-- The value block at `(r, d)`: entry `(a, b)` of the array, for the row `a` and column `b` the window's position gives. -/
theorem iblk2_at (c : Dev nD) (t : Fin cfg1.N) (r d : Fin 1024) (a : Fin 4096) (b : Fin 3072)
    (ha : a.val = 1024 * (t.val % 4) + r.val) (hb : b.val = 2048 + d.val) :
    (iblk1 V c 2 t : Vec F S1024x1024 .bf16) (ix2 r d) = (V c main_v5 : S4096x3072.Idx → Elt F .bf16) (ix2 a b) := by
  obtain ⟨-, -, -, -, e0, e1, -⟩ := idx1 t
  unfold iblk1
  rw [View.read_apply]
  show V c main_v5 _ = V c main_v5 _
  refine congrArg (V c main_v5) (funext fun ax => Fin.ext ?_)
  match ax with
  | ⟨0, _⟩ => show win1_2.index t (0 : Fin 2) * 1024 + 1 * r.val = a.val; rw [e0, ha]; omega
  | ⟨1, _⟩ => show win1_2.index t (1 : Fin 2) * 1024 + 1 * d.val = b.val; rw [e1, hb]; omega

end Cert.KernelIdeal.HandValue

end
-- ==== Proof.IdealRegion1Value.lean ====
/-
  The value of the attention region at the ideal values.

  For row `i = 1024 qb + r` of the result and column `e`: after the body at grid position `4 qb + kb` the three scratch
  buffers hold, at row `r` (and column `e` of the accumulator), the state of the streaming pass over key blocks
  `0, …, kb` from `(-∞, 0, 0)` — by induction on `kb`: the first inner step starts from the reset values, every other one
  from what the position before left, and one step of the body on a row is one step of the pass over the block's keys,
  the blocks being read off the one array the region finds. At `kb = 3` the body also stores the accumulator over the
  sum, that row block is written back, and the four row blocks tile the result array.
-/
import proofs.«164149_j72249939853362_2_alg».proof.Proof.IdealRegion1ValueCases
import proofs.«164149_j72249939853362_2_alg».proof.Proof.IdealRegion1ValueRow
import proofs.«164149_j72249939853362_2_alg».proof.Proof.IdealRegion1ValueBlocks
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The one array the region reads, as a matrix. -/
def yOf (c : Dev nD) : Fin 4096 → Fin 3072 → EReal := fun a b => (V c main_v5 : S4096x3072.Idx → EReal) (ix2 a b)

/-- The score of row `i` against key `j`: query columns against key columns. -/
def sG (y : Fin 4096 → Fin 3072 → EReal) (i j : Fin 4096) : EReal :=
  ∑ d : Fin 1024, y i ⟨d.val, by omega⟩ * y j ⟨1024 + d.val, by omega⟩

/-- Column `e` of the values. -/
def vG (y : Fin 4096 → Fin 3072 → EReal) (e : Fin 1024) (j : Fin 4096) : EReal := y j ⟨2048 + e.val, by omega⟩

/-- The state of the streaming pass after key blocks `0, …, k`. -/
def stK (s v : Fin 4096 → EReal) : (k : ℕ) → k < 4 → EReal × EReal × EReal
  | 0, _ => Cert.Attn.stepE s v (⊥, 0, 0) (Cert.Attn.keyBlock ⟨0, by norm_num⟩)
  | k + 1, h => Cert.Attn.stepE s v (stK s v k (by omega)) (Cert.Attn.keyBlock ⟨k + 1, h⟩)

/-- One step of the body at position `t`, on row `r` and column `e`, is the step of the pass over key block `t mod 4` for
    row `1024 (t / 4) + r`. -/
theorem step_at (c : Dev nD) (t : Fin cfg1.N) (b : Fin 4) (hb : t.val % 4 = b.val) (r e : Fin 1024) (i : Fin 4096)
    (hi : i.val = 1024 * (t.val / 4) + r.val) (xs0 xs1 : FVec Ideal S1024x1 .f32) (xs2 : FVec Ideal S1024x1024 .f32) :
    (k1_pay8 (F := Ideal) (iblk1 V c 0 t) (iblk1 V c 1 t) xs0 (ix2 r (0 : Fin 1)),
      k1_pay11 (F := Ideal) (iblk1 V c 0 t) (iblk1 V c 1 t) xs0 xs0 xs1 (ix2 r (0 : Fin 1)),
      k1_pay12 (F := Ideal) (iblk1 V c 0 t) (iblk1 V c 1 t) xs0 xs0 xs2 (iblk1 V c 2 t) (ix2 r e))
      = Cert.Attn.stepE (sG (yOf V c) i) (vG (yOf V c) e)
          (xs0 (ix2 r (0 : Fin 1)), xs1 (ix2 r (0 : Fin 1)), xs2 (ix2 r e)) (Cert.Attn.keyBlock b) := by
  refine (row_step (iblk1 V c 0 t) (iblk1 V c 1 t) (iblk1 V c 2 t) xs0 xs1 xs2 r e).trans ?_
  rw [stepE_block]
  refine congrArg₂ (fun f g => Cert.Attn.stepE f g (xs0 (ix2 r (0 : Fin 1)), xs1 (ix2 r (0 : Fin 1)), xs2 (ix2 r e)) Finset.univ)
    (funext fun jj => ?_) (funext fun jj => ?_)
  · show (∑ d : Fin 1024, _) = ∑ d : Fin 1024, yOf V c i ⟨d.val, by omega⟩ * yOf V c (keyOf b jj) ⟨1024 + d.val, by omega⟩
    refine Finset.sum_congr rfl fun d _ => ?_
    rw [iblk0_at V c t r d i ⟨d.val, by omega⟩ hi rfl,
      iblk1_at V c t jj d (keyOf b jj) ⟨1024 + d.val, by omega⟩ (by show 1024 * b.val + jj.val = _; rw [hb]) rfl]
    rfl
  · exact (iblk2_at V c t jj e (keyOf b jj) ⟨2048 + e.val, by omega⟩ (by show 1024 * b.val + jj.val = _; rw [hb]) rfl).trans rfl

/-- THE INVARIANT: after position `4 qb + kb` the scratch buffers hold, at row `r` and column `e`, the state of the pass
    after key blocks `0, …, kb` for row `1024 qb + r`. -/
theorem inv (c : Dev nD) : ∀ (kb : ℕ) (hk : kb < 4) (t : Fin cfg1.N) (qb : ℕ) (ht : t.val = 4 * qb + kb) (r e : Fin 1024)
    (i : Fin 4096) (hi : i.val = 1024 * qb + r.val),
    ((outsAt1 V c t.val t.isLt).2.1 (ix2 r (0 : Fin 1)), (outsAt1 V c t.val t.isLt).2.2.1 (ix2 r (0 : Fin 1)),
        (outsAt1 V c t.val t.isLt).2.2.2 (ix2 r e))
      = stK (sG (yOf V c) i) (vG (yOf V c) e) kb hk
  | 0, hk, t, qb, ht, r, e, i, hi => by
    obtain ⟨a0, a1, a2⟩ := outs_A V c t (by omega) (by omega)
    rw [a0, a1, a2, pay2_eq, pay1_eq]
    refine (step_at V c t ⟨0, by norm_num⟩ (by show t.val % 4 = 0; omega) r e i (by rw [hi]; omega) _ _ _).trans ?_
    rw [pay4_at, pay5_at, pay6_at]
    rfl
  | kb + 1, hk, t, qb, ht, r, e, i, hi => by
    have hprev : t.val - 1 < cfg1.N := Nat.lt_of_le_of_lt (Nat.sub_le _ _) t.isLt
    have ih := inv c kb (by omega) ⟨t.val - 1, hprev⟩ qb (by show t.val - 1 = _; omega) r e i hi
    have h0 : ¬t.val % 4 = 0 := by omega
    by_cases h1 : t.val % 4 = 3
    · obtain ⟨a0, a1, a2, -⟩ := outs_C V c t h0 h1
      rw [a0, a1, a2, pay2_eq, pay1_eq]
      refine (step_at V c t ⟨kb + 1, hk⟩ (by show t.val % 4 = kb + 1; omega) r e i (by rw [hi]; omega) _ _ _).trans ?_
      exact congrArg (fun st => Cert.Attn.stepE (sG (yOf V c) i) (vG (yOf V c) e) st (Cert.Attn.keyBlock ⟨kb + 1, hk⟩)) ih
    · obtain ⟨a0, a1, a2⟩ := outs_B V c t h0 h1
      rw [a0, a1, a2, pay2_eq, pay1_eq]
      refine (step_at V c t ⟨kb + 1, hk⟩ (by show t.val % 4 = kb + 1; omega) r e i (by rw [hi]; omega) _ _ _).trans ?_
      exact congrArg (fun st => Cert.Attn.stepE (sG (yOf V c) i) (vG (yOf V c) e) st (Cert.Attn.keyBlock ⟨kb + 1, hk⟩)) ih

/-- The result at row `i` and column `e`: the final weighted sum over the final sum of exponentials. -/
def outAt (c : Dev nD) (i : Fin 4096) (e : Fin 1024) : EReal :=
  Ideal.div (stK (sG (yOf V c) i) (vG (yOf V c) e) 3 (by norm_num)).2.2 (stK (sG (yOf V c) i) (vG (yOf V c) e) 3 (by norm_num)).2.1

/-- The result array, index by index. -/
def outG (c : Dev nD) : S4096x1024.Idx → EReal := fun idx => outAt V c ⟨(idx 0).val, idx2_lt0 idx⟩ ⟨(idx 1).val, idx2_lt1 idx⟩

/-- What a last inner step writes back is its row block of `outG`. -/
theorem flushed_eq (c : Dev nD) (t : Fin cfg1.N) (hf : (cfg1.win 3).flush t = true) :
    (dat1 V c).flushed 3 t = ((cfg1.win 3).blk t).view.read (Elt Ideal) (outG V c) := by
  have h3 : t.val % 4 = 3 := (flush1_3 t).mp hf
  obtain ⟨-, -, -, -, -, -, e0, e1⟩ := idx1 t
  show (cfg1.win 3).cut (grid1.coords t) ((dat1 V c).after 3 t) = _
  rw [after1_3]
  obtain ⟨-, a1, a2, a3⟩ := outs_C V c t (by omega) h3
  have a3' : (outsAt1 V c t.val t.isLt).1 = k1_pay3 (F := Ideal) (outsAt1 V c t.val t.isLt).2.2.2 (outsAt1 V c t.val t.isLt).2.2.1 := by
    rw [a3, a1, a2]
  rw [a3']
  show (k1_pay3 (F := Ideal) (outsAt1 V c t.val t.isLt).2.2.2 (outsAt1 V c t.val t.isLt).2.2.1 : S1024x1024.Idx → EReal)
    = fun y : S1024x1024.Idx => outG V c (((cfg1.win 3).blk t).view.emb y)
  funext y
  obtain ⟨r, e, rfl⟩ : ∃ (r e : Fin 1024), y = ix2 r e := ⟨y 0, y 1, eq_ix2 y⟩
  rw [pay3_at]
  have hI := inv V c 3 (by norm_num) t (t.val / 4) (by omega) r e
    ⟨1024 * (t.val / 4) + r.val, by have := t.isLt; have := N1; omega⟩ rfl
  refine (congrArg (fun st : EReal × EReal × EReal => Ideal.div st.2.2 st.2.1) hI).trans ?_
  show outAt V c _ e = outAt V c _ _
  congr 1
  · apply Fin.ext
    show 1024 * (t.val / 4) + r.val = win1_3.index t (0 : Fin 2) * 1024 + 1 * r.val
    rw [e0]; omega
  · apply Fin.ext
    show e.val = win1_3.index t (1 : Fin 2) * 1024 + 1 * e.val
    rw [e1]; omega

/-- An index of the result array is in position `t`'s block iff each coordinate is in the block's range on its axis. -/
theorem mem_blk3 (t : Fin cfg1.N) (i : S4096x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v6).slice (win1_3.rect t)).set ↔ _
  rw [View.set_slice_whole, Rect.mem_set_unit]
  exact Iff.rfl

/-- The region's result array ends at `outG`: the four row blocks written back tile it. -/
theorem final3 (c : Dev nD) : (dat1 V c).arrAt 3 cfg1.N = outG V c :=
  (dat1 V c).arrAt_eq_of_cover 3 (outG V c) (flushed_eq V c) fun i => by
    have hi0 : (i 0).val < 4096 := (i 0).isLt
    have hi1 : (i 1).val < 1024 := (i 1).isLt
    have hN : 4 * ((i 0).val / 1024) + 3 < cfg1.N := by rw [N1]; omega
    refine ⟨⟨4 * ((i 0).val / 1024) + 3, hN⟩, (flush1_3 _).mpr (by show (4 * ((i 0).val / 1024) + 3) % 4 = 3; omega), ?_⟩
    obtain ⟨-, -, -, -, -, -, e0, e1⟩ := idx1 ⟨4 * ((i 0).val / 1024) + 3, hN⟩
    refine (mem_blk3 _ i).mpr ?_
    intro a
    match a with
    | ⟨0, _⟩ =>
      show win1_3.index ⟨4 * ((i 0).val / 1024) + 3, hN⟩ (0 : Fin 2) * 1024 ≤ (i 0).val
        ∧ (i 0).val < win1_3.index ⟨4 * ((i 0).val / 1024) + 3, hN⟩ (0 : Fin 2) * 1024 + 1024
      rw [e0]
      show (4 * ((i 0).val / 1024) + 3) / 4 * 1024 ≤ (i 0).val ∧ (i 0).val < (4 * ((i 0).val / 1024) + 3) / 4 * 1024 + 1024
      omega
    | ⟨1, _⟩ =>
      show win1_3.index ⟨4 * ((i 0).val / 1024) + 3, hN⟩ (1 : Fin 2) * 1024 ≤ (i 1).val
        ∧ (i 1).val < win1_3.index ⟨4 * ((i 0).val / 1024) + 3, hN⟩ (1 : Fin 2) * 1024 + 1024
      rw [e1]
      omega

end Cert.KernelIdeal.HandValue

namespace Cert.KernelIdeal

open Cert.KernelIdeal Cert.KernelIdeal.Gen Idealize.ShloMosaic Idealize.ShloMosaic.TcCoe Idealize.SL.Sem

/-- THE VALUE OF THE ATTENTION REGION: entry `(i, e)` of its result array is the streaming pass over the four key blocks
    for row `i` — scores of the query columns against the key columns, values from column `e` of the value columns — and
    the final weighted sum over the final sum of exponentials. -/
theorem region1_value (V : (c : Dev nD) → (b : Ref sig .tc) → Buf (Elt Ideal) ((c : Thread nD τ).loc b)) (c : Dev nD) (i : Fin 4096) (e : Fin 1024) :
    ((Hand.dat1 (F := Ideal) V c).arrAt 3 cfg1.N : S4096x1024.Idx → EReal) (ValueIdx.ix2 i e)
      = (let y : Fin 4096 → Fin 3072 → EReal := fun a b => (V c main_v5 : S4096x3072.Idx → EReal) (ValueIdx.ix2 a b)
         let st := ([0, 1, 2, 3] : List (Fin 4)).foldl (fun st b => Cert.Attn.stepE (fun j : Fin 4096 => ∑ d : Fin 1024, y i ⟨d.val, by omega⟩ * y j ⟨1024 + d.val, by omega⟩) (fun j : Fin 4096 => y j ⟨2048 + e.val, by omega⟩) st (Cert.Attn.keyBlock b)) (⊥, 0, 0)
         Ideal.div st.2.2 st.2.1) := by
  rw [HandValue.final3 V c]
  rfl

end Cert.KernelIdeal

end
-- ==== Proof.IdealKernelValue.lean ====
/-
  The kernel program's result as the specification's streaming arrangement

The projection region leaves in its output array the product of the input array by the stacked weight array
(`arr5_eq`), and the stacked weight array is, column by column, the specification's `Cert.Attn.weights` of the three
weight arguments (`R0.weights_apply`). The attention region reads its queries, keys and values off the three column
bands of that product, so its result is the specification's `Cert.Attn.kernelOut` of the four arguments
(`Cert.Attn.kernelOut_of_product`).
-/
import proofs.«164149_j72249939853362_2_alg».proof.Proof.IdealRegion0Value
import proofs.«164149_j72249939853362_2_alg».proof.Proof.AttnCompose
import proofs.«164149_j72249939853362_2_alg».proof.Proof.FrameKernelIdealRun
import proofs.«164149_j72249939853362_2_alg».proof.Proof.IdealRegion1Value

noncomputable section

namespace Cert.KernelIdeal.HandValue

open Cert.KernelIdeal Cert.KernelIdeal.Gen Idealize.ShloMosaic Idealize.ShloMosaic.TcCoe Idealize.SL.Sem
open Idealize.ShloMosaic.Pipeline (Dat)
open Idealize.ShloMosaic.ValueIdx

namespace KV

/-- The stacked weight array at `(k, j)` is the specification's stacked weight of the three matrices read entry by entry. -/
theorem weights_spec (a1 a2 a3 : FVec Ideal S1024x1024 .f32) (k : Fin 1024) (j : Fin 3072) :
    (R0.weights a1 a2 a3 : S1024x3072.Idx → EReal) (ix2 k j)
      = Cert.Attn.weights (fun r q => (a1 : S1024x1024.Idx → EReal) (ix2 r q)) (fun r q => (a2 : S1024x1024.Idx → EReal) (ix2 r q))
          (fun r q => (a3 : S1024x1024.Idx → EReal) (ix2 r q)) k j := by
  rw [R0.weights_apply]
  unfold Cert.Attn.weights Cert.Attn.sc
  rfl

/-- The projection's output array at `(i, j)`, for any region-entry contents whose input array is `x` and whose weight
    array is the stacked weight of `a1`, `a2`, `a3`: row `i` of `x` against column `j` of the specification's stacked weight. -/
theorem product_entry (V : (c : Dev nD) → (b : Ref sig .tc) → Buf (Elt Ideal) ((c : Thread nD τ).loc b)) (c : Dev nD)
    (a1 a2 a3 : FVec Ideal S1024x1024 .f32) (x : S4096x1024.Idx → EReal) (o : S4096x3072.Idx → EReal)
    (ho : (Hand.dat0 (F := Ideal) V c).arrAt 2 cfg0.N = o) (hx : V c main_arg0 = x) (hw : V c main_v4 = R0.weights a1 a2 a3)
    (i : Fin 4096) (j : Fin 3072) :
    o (ix2 i j) = ∑ k : Fin 1024, x (ix2 i k)
      * Cert.Attn.weights (fun r q => (a1 : S1024x1024.Idx → EReal) (ix2 r q)) (fun r q => (a2 : S1024x1024.Idx → EReal) (ix2 r q))
          (fun r q => (a3 : S1024x1024.Idx → EReal) (ix2 r q)) k j := by
  rw [arr5_eq' V c o x (R0.weights a1 a2 a3) ho hx hw i j]
  exact Finset.sum_congr rfl fun k _ => by rw [weights_spec]

/-- The streaming pass on scores and values read off an array `y` that is the projection's output (for region-entry
    contents `V` holding the launched input array and the host's weight array) is the specification's streaming
    arrangement of the four launched arguments. -/
theorem streaming_of_product (m : (ℓ : Loc nD τ sig) → Buf (Elt Ideal) ℓ) (c : Dev nD)
    (V : (c : Dev nD) → (b : Ref sig .tc) → Buf (Elt Ideal) ((c : Thread nD τ).loc b))
    (hx : V c main_arg0 = m ((c : Thread nD τ).loc main_arg0)) (hw : V c main_v4 = Gen.V1 m c main_v4)
    (y : Fin 4096 → Fin 3072 → EReal)
    (hy : ∀ a b, y a b = (show S4096x3072.Idx → EReal from (Hand.dat0 (F := Ideal) V c).arrAt 2 cfg0.N) (ix2 a b))
    (i : Fin 4096) (e : Fin 1024) :
    (let st := ([0, 1, 2, 3] : List (Fin 4)).foldl
        (fun st b => Cert.Attn.stepE (fun j : Fin 4096 => ∑ d : Fin 1024, y i ⟨d.val, by omega⟩ * y j ⟨1024 + d.val, by omega⟩)
          (fun j : Fin 4096 => y j ⟨2048 + e.val, by omega⟩) st (Cert.Attn.keyBlock b)) (⊥, 0, 0)
     Ideal.div st.2.2 st.2.1)
      = Cert.Attn.kernelOut (fun a b => (show S4096x1024.Idx → EReal from m ((c : Thread nD τ).loc main_arg0)) (ix2 a b))
          (fun a b => (show S1024x1024.Idx → EReal from m ((c : Thread nD τ).loc main_arg1)) (ix2 a b))
          (fun a b => (show S1024x1024.Idx → EReal from m ((c : Thread nD τ).loc main_arg2)) (ix2 a b))
          (fun a b => (show S1024x1024.Idx → EReal from m ((c : Thread nD τ).loc main_arg3)) (ix2 a b)) i e :=
  Cert.Attn.kernelOut_of_product _ _ _ _ y
    (fun a b => (hy a b).trans (product_entry V c (m ((c : Thread nD τ).loc main_arg1)) (m ((c : Thread nD τ).loc main_arg2))
      (m ((c : Thread nD τ).loc main_arg3)) (m ((c : Thread nD τ).loc main_arg0)) _ rfl hx (hw.trans (R0.v4_term m c)) a b)) i e

end KV

/-- THE KERNEL PROGRAM'S RESULT: entry `(i, e)` of the attention region's output array, entered at what the projection
    region leaves, is the specification's streaming arrangement of the four launched arguments. -/
theorem kernel_value (m : (ℓ : Loc nD τ sig) → Buf (Elt Ideal) ℓ) (c : Dev nD) (i : Fin 4096) (e : Fin 1024) :
    (show S4096x1024.Idx → EReal from (Hand.dat1 (F := Ideal) (Hand.E2 m) c).arrAt 3 cfg1.N) (ValueIdx.ix2 i e)
      = Cert.Attn.kernelOut (fun a b => (show S4096x1024.Idx → EReal from m ((c : Thread nD τ).loc main_arg0)) (ValueIdx.ix2 a b))
          (fun a b => (show S1024x1024.Idx → EReal from m ((c : Thread nD τ).loc main_arg1)) (ValueIdx.ix2 a b))
          (fun a b => (show S1024x1024.Idx → EReal from m ((c : Thread nD τ).loc main_arg2)) (ValueIdx.ix2 a b))
          (fun a b => (show S1024x1024.Idx → EReal from m ((c : Thread nD τ).loc main_arg3)) (ValueIdx.ix2 a b)) i e :=
  (Cert.KernelIdeal.region1_value (Hand.E2 m) c i e).trans
    (KV.streaming_of_product m c (Hand.E1 m) ((Gen.V1_of m c main_arg0 (by decide)).trans rfl) rfl
      (fun a b => (show S4096x3072.Idx → EReal from Hand.E2 m c main_v5) (ValueIdx.ix2 a b))
      (fun a b => congrFun (Hand.W2_arr m c 2) (ValueIdx.ix2 a b)) i e)

end Cert.KernelIdeal.HandValue

end
-- ==== Proof.AttnRef.lean ====
/-
  The reference program's result, read at one index, is the reference arrangement `refOut` of attention.

  Each stage of the reference is read at an index built from literal coordinates: the three projections are sums over the
  shared axis of an input row times a weight row (the weight is transposed before the product); the scores are the inner
  products of projected rows, then multiplied by the broadcast scalar `1 / sqrt 1024`; the row maximum is the fold of `max`
  over the row from the word of `-∞`, and is taken once more against that word; the exponentials, their row sums from the
  word of `0`, the quotients, and the final product with the value projection follow stage by stage.
-/
import proofs.«164149_j72249939853362_2_alg».proof.Proof.RefRead
import proofs.«164149_j72249939853362_2_alg».proof.Proof.AttnSpec
import proofs.«164149_j72249939853362_2_alg».proof.Proof.LibLayout3

noncomputable section

open scoped BigOperators

namespace Cert.Attn

open Idealize.ShloMosaic Idealize.ShloMosaic.ValueIdx Cert.ReferenceIdeal Cert.ReferenceIdeal.Read

/-- A rank-2 array as a matrix of its entries. -/
abbrev asMat {a b : ℕ} (x : (⟨2, ![a, b]⟩ : Shape).Idx → EReal) : Mat a b := fun i j => x (ix2 i j)

variable (x0 : (⟨S4096x1024, .f32⟩ : BufTy).Contents (Elt Ideal)) (x1 x2 x3 : (⟨S1024x1024, .f32⟩ : BufTy).Contents (Elt Ideal))

/-! ## The projections -/

/-- The query projection at `(i, d)`. -/
theorem q_at (i : Fin 4096) (d : Fin 1024) : val_main_v1 (F := Ideal) x0 x1 (ix2 i d) = proj (asMat x0) (asMat x1) i d := by
  rw [val_main_v1_apply]
  refine Finset.sum_congr rfl fun k _ => ?_
  rw [val_main_v0_apply]
  have e1 : lidx_main_v1 (ix2 i d) k = ix2 i k := funext fun a => by match a with | ⟨0, _⟩ => rfl | ⟨1, _⟩ => rfl
  have e2 : idx_main_v0 (ridx_main_v1 (ix2 i d) k) = ix2 d k := funext fun a => by match a with | ⟨0, _⟩ => rfl | ⟨1, _⟩ => rfl
  rw [e1, e2]

/-- The key projection at `(j, d)`. -/
theorem k_at (j : Fin 4096) (d : Fin 1024) : val_main_v3 (F := Ideal) x0 x2 (ix2 j d) = proj (asMat x0) (asMat x2) j d := by
  rw [val_main_v3_apply]
  refine Finset.sum_congr rfl fun k _ => ?_
  rw [val_main_v2_apply]
  have e1 : lidx_main_v3 (ix2 j d) k = ix2 j k := funext fun a => by match a with | ⟨0, _⟩ => rfl | ⟨1, _⟩ => rfl
  have e2 : idx_main_v2 (ridx_main_v3 (ix2 j d) k) = ix2 d k := funext fun a => by match a with | ⟨0, _⟩ => rfl | ⟨1, _⟩ => rfl
  rw [e1, e2]

/-- The value projection at `(j, c)`. -/
theorem v_at (j : Fin 4096) (c : Fin 1024) : val_main_v5 (F := Ideal) x0 x3 (ix2 j c) = proj (asMat x0) (asMat x3) j c := by
  rw [val_main_v5_apply]
  refine Finset.sum_congr rfl fun k _ => ?_
  rw [val_main_v4_apply]
  have e1 : lidx_main_v5 (ix2 j c) k = ix2 j k := funext fun a => by match a with | ⟨0, _⟩ => rfl | ⟨1, _⟩ => rfl
  have e2 : idx_main_v4 (ridx_main_v5 (ix2 j c) k) = ix2 c k := funext fun a => by match a with | ⟨0, _⟩ => rfl | ⟨1, _⟩ => rfl
  rw [e1, e2]

/-! ## The scores -/

/-- The unscaled score at `(i, j)`. -/
theorem dot_at (i j : Fin 4096) :
    val_main_v9 (F := Ideal) x0 x1 x2 (ix2 i j) = score (proj (asMat x0) (asMat x1)) (proj (asMat x0) (asMat x2)) i j := by
  rw [val_main_v9_apply]
  refine Finset.sum_congr rfl fun d _ => ?_
  rw [val_main_v8_apply]
  have e1 : lidx_main_v9 (ix2 i j) d = ix2 i d := funext fun a => by match a with | ⟨0, _⟩ => rfl | ⟨1, _⟩ => rfl
  have e2 : idx_main_v8 (ridx_main_v9 (ix2 i j) d) = ix2 j d := funext fun a => by match a with | ⟨0, _⟩ => rfl | ⟨1, _⟩ => rfl
  rw [e1, e2, q_at, k_at]

/-- The broadcast scale at any index. -/
theorem scale_at (i : S4096x4096.Idx) : val_main_v10 (F := Ideal) i = refScale := by
  rw [val_main_v10_apply, val_main_v7_apply, val_main_cst_0_apply, val_main_v6_apply, val_main_cst_apply]
  rfl

/-- The scaled score at `(i, j)`. -/
theorem sR_at (i j : Fin 4096) :
    val_main_v11 (F := Ideal) x0 x1 x2 (ix2 i j) = refScore (asMat x0) (asMat x1) (asMat x2) i j := by
  rw [val_main_v11_apply, dot_at, scale_at]
  rfl

/-! ## The row maximum, the exponentials, the normaliser -/

/-- The row maximum at `i`. -/
theorem max_at (i : Fin 4096) :
    val_main_v14 (F := Ideal) x0 x1 x2 (ix1 i) = refMax (asMat x0) (asMat x1) (asMat x2) i := by
  rw [val_main_v14_apply, val_main_v13_apply, val_main_cst_2_apply]
  have h : val_main_v12 (F := Ideal) x0 x1 x2 (ix1 i)
      = (Finset.univ : Finset (Fin 4096)).fold max (Ideal.ofBits .f32 0xFF800000#32)
          (fun j => refScore (asMat x0) (asMat x1) (asMat x2) i j) := by
    unfold val_main_v12
    refine (Cert.Layout3.rowMaxH (R := 4096) (W := 4096) _ _ _ _ i).trans ?_
    rw [val_main_cst_1_apply]
    exact congrArg (Finset.fold max _ · Finset.univ) (funext fun j => sR_at x0 x1 x2 i j)
  rw [h]
  rfl

/-- The exponential at `(i, j)`. -/
theorem exp_at (i j : Fin 4096) :
    val_main_v18 (F := Ideal) x0 x1 x2 (ix2 i j) = refExp (asMat x0) (asMat x1) (asMat x2) i j := by
  rw [val_main_v18_apply, val_main_v17_apply, sR_at, val_main_v16_apply, val_main_v15_apply]
  have e : idx_main_v15 (idx_main_v16 (ix2 i j)) = ix1 i := funext fun a => by match a with | ⟨0, _⟩ => rfl
  rw [e, max_at]
  rfl

/-- The normaliser at `i`. -/
theorem sum_at (i : Fin 4096) :
    val_main_v19 (F := Ideal) x0 x1 x2 (ix1 i) = refSum (asMat x0) (asMat x1) (asMat x2) i := by
  rw [val_main_v19_apply, val_main_cst_3_apply]
  unfold refSum
  refine congrArg (_ + ·) (Finset.sum_congr rfl fun j _ => ?_)
  have e : idx_main_v19 (ix1 i) j = ix2 i j := funext fun a => by match a with | ⟨0, _⟩ => rfl | ⟨1, _⟩ => rfl
  rw [e, exp_at]

/-! ## The result -/

/-- The reference's result at `(i, c)` is `refOut` of the four arguments read as matrices. -/
theorem ref_is_refOut (x0 : (⟨Cert.ReferenceIdeal.S4096x1024, .f32⟩ : BufTy).Contents (Elt Ideal))
    (x1 x2 x3 : (⟨Cert.ReferenceIdeal.S1024x1024, .f32⟩ : BufTy).Contents (Elt Ideal)) (i : Fin 4096) (c : Fin 1024) :
    Cert.ReferenceIdeal.Read.val_main_v23 (F := Ideal) x0 x1 x2 x3 (ValueIdx.ix2 i c)
      = refOut (fun a b => x0 (ValueIdx.ix2 a b)) (fun a b => x1 (ValueIdx.ix2 a b)) (fun a b => x2 (ValueIdx.ix2 a b))
          (fun a b => x3 (ValueIdx.ix2 a b)) i c := by
  rw [val_main_v23_apply]
  refine Finset.sum_congr rfl fun j _ => ?_
  rw [val_main_v22_apply, val_main_v21_apply, val_main_v20_apply]
  have e1 : lidx_main_v23 (ix2 i c) j = ix2 i j := funext fun a => by match a with | ⟨0, _⟩ => rfl | ⟨1, _⟩ => rfl
  have e2 : idx_main_v20 (idx_main_v21 (ix2 i j)) = ix1 i := funext fun a => by match a with | ⟨0, _⟩ => rfl
  have e3 : ridx_main_v23 (ix2 i c) j = ix2 j c := funext fun a => by match a with | ⟨0, _⟩ => rfl | ⟨1, _⟩ => rfl
  rw [e1, e2, e3, exp_at, sum_at, v_at]
  rfl

end Cert.Attn

end
-- ==== Proof.AttnFinite.lean ====
/-
  From the precondition "every entry of every input has absolute value below `+∞`" to "every entry is a real".

  The precondition is the conjunction, by `and` on one-bit words, of four reductions by `and` over all the entries of an
  array of comparisons `|a j| < +∞`. A conjunction that is `1` has both sides `1`; a reduction by `and` that is `1` met only
  `1`s; and an extended real whose absolute value `max a (-a)` is below `+∞` is neither infinity, hence a real.
-/
import proofs.«164149_j72249939853362_2_alg».proof.Pre_finite_inputs
import Idealize.ShloMosaic.Lib.ReduceAll
import Idealize.ShloMosaic.Lib.ValueIdx
import Idealize.ShloMosaic.Lib.Pipeline.Value
import Idealize.ShloMosaic.PureOps.Ideal.Laws
import Mathlib

noncomputable section

namespace Cert.Attn

open Idealize.ShloMosaic

/-- The word `0x7F800000` denotes `+∞`. -/
theorem word_pos_inf : Ideal.ofBits .f32 0x7F800000#32 = ⊤ := by
  simp [Ideal.ofBits, Ideal.ieee]

/-- An extended real whose absolute value compares below `+∞` is a real. -/
theorem real_of_abs_lt_top (a : EReal) (h : Ideal.cmp .olt (max a (-a)) ⊤ = 1#1) : ∃ r : ℝ, a = (r : EReal) := by
  induction a using EReal.rec with
  | bot => exfalso; simp [Ideal.cmp] at h
  | coe r => exact ⟨r, rfl⟩
  | top => exfalso; simp [Ideal.cmp] at h

instance : Subsingleton Cert.Pre_finite_inputs.S_.Idx := ⟨fun a b => funext fun d => d.elim0⟩

/-- One array: if the reduction by `and` of the comparisons `|a j| < +∞` over all entries is `1`, every entry is a real. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf a) (broadcastInDim s ![] hb (constant (F := Ideal) Cert.Pre_finite_inputs.S_ .f32 0x7F800000#32)))
          init hr hu ValueIdx.ix0 = 1#1)
    (j : s.Idx) : ∃ r : ℝ, a j = (r : EReal) := by
  have h1 := Host.reduce_andi_all _ init hr hu ValueIdx.ix0 e j
  refine real_of_abs_lt_top (a j) ?_
  rw [← word_pos_inf]
  exact h1

/-- Under the precondition every entry of each of the four inputs is a real. -/
theorem finite_of_pre [Cert.Pre_finite_inputs.Facts]
    (a0 : (⟨Cert.Pre_finite_inputs.S4096x1024, .f32⟩ : BufTy).Contents (Elt Ideal))
    (a1 a2 a3 : (⟨Cert.Pre_finite_inputs.S1024x1024, .f32⟩ : BufTy).Contents (Elt Ideal))
    (h : Cert.Pre_finite_inputs.fn (F := Ideal) a0 a1 a2 a3 = fun _ => 1#1) :
    (∀ j, ∃ r : ℝ, a0 j = (r : EReal)) ∧ (∀ j, ∃ r : ℝ, a1 j = (r : EReal)) ∧ (∀ j, ∃ r : ℝ, a2 j = (r : EReal))
      ∧ (∀ j, ∃ r : ℝ, a3 j = (r : EReal)) := by
  have h0 := congrFun h ValueIdx.ix0
  dsimp only [Cert.Pre_finite_inputs.fn, Cert.Pre_finite_inputs.fn_part1, andi] at h0
  obtain ⟨h012, e3⟩ := IntOp.andi_eq_one.1 h0
  obtain ⟨h01, e2⟩ := IntOp.andi_eq_one.1 h012
  obtain ⟨e0, e1⟩ := IntOp.andi_eq_one.1 h01
  exact ⟨real_of_all a0 _ _ _ _ e0, real_of_all a1 _ _ _ _ e1, real_of_all a2 _ _ _ _ e2, real_of_all a3 _ _ _ _ e3⟩

end Cert.Attn

end
-- ==== Proof.IdealResult.lean ====
import proofs.«164149_j72249939853362_2_alg».proof.Defs
import proofs.«164149_j72249939853362_2_alg».proof.Proof.Gen.KernelIdeal
import proofs.«164149_j72249939853362_2_alg».proof.Proof.Gen.ReferenceIdeal
import proofs.«164149_j72249939853362_2_alg».proof.Proof.Gen.Pre_finite_inputs
import proofs.«164149_j72249939853362_2_alg».proof.Proof.FrameKernelIdealRun
import proofs.«164149_j72249939853362_2_alg».proof.Proof.IdealKernelValue
import proofs.«164149_j72249939853362_2_alg».proof.Proof.RefRead
import proofs.«164149_j72249939853362_2_alg».proof.Proof.AttnRef
import proofs.«164149_j72249939853362_2_alg».proof.Proof.AttnBridge
import proofs.«164149_j72249939853362_2_alg».proof.Proof.AttnFinite
import Idealize.ShloMosaic.Lib.ValueIdx

/-! # The two programs end with the same array

Index by index: the reference's last stage reads to the plain softmax average; the kernel's output array reads to the
streamed average of the same four matrices; under the precondition every entry is a finite real, and there the two
averages agree. -/

noncomputable section

namespace Cert.Proof

open Idealize.ShloMosaic Idealize.SL.Sem

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) :
    Cert.ReferenceIdeal.Value.res_main_v23 (F := Ideal) m' c
      = (Cert.KernelIdeal.Hand.dat1 (F := Ideal) (Cert.KernelIdeal.Hand.E2 m) c).arrAt 3 Cert.KernelIdeal.cfg1.N := by
  rw [Cert.ReferenceIdeal.Read.val_main_v23_eq, (hagree c).1, (hagree c).2.1, (hagree c).2.2.1, (hagree c).2.2.2]
  funext j
  obtain ⟨i, e, rfl⟩ : ∃ (i : Fin 4096) (e : Fin 1024), j = ValueIdx.ix2 i e := ⟨j 0, j 1, ValueIdx.eq_ix2 j⟩
  obtain ⟨h0, h1, h2, h3⟩ := Cert.Attn.finite_of_pre _ _ _ _ (hpre c)
  refine (Cert.Attn.ref_is_refOut _ _ _ _ i e).trans ?_
  refine (Cert.Attn.kernelOut_eq_refOut _ _ _ _ (fun a b => h0 _) (fun a b => h1 _) (fun a b => h2 _) (fun a b => h3 _) i e).symm.trans ?_
  exact (Cert.KernelIdeal.HandValue.kernel_value m c i e).symm

end Cert.Proof

end
-- ==== Proof.lean ====
/- The certificate of the fused projection + streaming-softmax attention program against the plain softmax attention.

   The program has two kernel regions. The first multiplies the input by the three weight matrices at once (the query
   weights pre-multiplied by 1/32, the three laid side by side) and leaves one array of query, key and value columns.
   The second walks a 4 × 4 grid — a block of 1024 query rows against a block of 1024 keys at a time — carrying for
   each row a running maximum, a running sum and a running accumulator, rescaled by exp (old maximum − new maximum)
   whenever the maximum grows, and divides the accumulator by the sum after the last key block.

   Frames: each region's body is run once per control case (reset / absorb / absorb and store); the three input
   windows of the second region read ONE array, held by parts of the full share through the region.
   Value at the exact instance: the streamed triple after all four key blocks is (max, Σ exp (s − max), Σ exp (s − max) · v),
   so its quotient is the softmax average; 1/32 = 1/sqrt 1024 exactly, and moving that factor from the scores into the
   query weights, like every other rearrangement used, needs the inputs to be finite reals — the precondition. -/
import proofs.«164149_j72249939853362_2_alg».proof.Defs
import proofs.«164149_j72249939853362_2_alg».proof.Proof.Gen.Kernel
import proofs.«164149_j72249939853362_2_alg».proof.Proof.Gen.KernelIdeal
import proofs.«164149_j72249939853362_2_alg».proof.Proof.Gen.ReferenceIdeal
import proofs.«164149_j72249939853362_2_alg».proof.Proof.Gen.Pre_finite_inputs
import proofs.«164149_j72249939853362_2_alg».proof.Proof.FrameKernelRun
import proofs.«164149_j72249939853362_2_alg».proof.Proof.FrameKernelIdealRun
import proofs.«164149_j72249939853362_2_alg».proof.Proof.RefRead
import proofs.«164149_j72249939853362_2_alg».proof.Proof.IdealResult
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  fun m ρ m' ρ' hpre hagree => ⟨fun c => (Cert.KernelIdeal.Hand.dat1 (F := Ideal) (Cert.KernelIdeal.Hand.E2 m) c).arrAt 3 Cert.KernelIdeal.cfg1.N,
    Cert.KernelIdeal.Hand.run_named m ρ,
    (θ_run Cert.ReferenceIdeal.defs _ _).mono (fun _ h c => ⟨(h c).1.trans (Cert.Proof.result_eq m m' hpre hagree c), (h c).2⟩)
      (Cert.ReferenceIdeal.Value.run (F := Ideal) m' ρ')⟩⟩

end Cert.Proof

end
